-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S256 .f32) (main_arg17 : FVec F S256x64 .f32) (main_arg18 : FVec F S64 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x64 .f32 := Host.absf main_arg17
  let main_cst_28 : FVec F S_ .f32 := constant S_ .f32 0x7F800000#32
  let main_v75 : FVec F S256x64 .f32 := broadcastInDim S256x64 ![] bcast_S_S256x64 main_cst_28
  let main_v76 : IVec S256x64 1 := cmpf .olt main_v74 main_v75
  let main_c_29 : IVec S_ 1 := constantI S_ 1 1#1
  let main_v77 : IVec S_ 1 := (fun x v => Host.reduce IntOp.andi x v reducesTo_S256x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  main_v83

def fn_part3 {F : FTy → Type} [FloatOps F] (main_arg13 : FVec F S256x256 .f32) (main_arg14 : FVec F S256 .f32) (main_arg15 : FVec F S256x256 .f32) (main_arg16 : FVec F S256 .f32) (main_arg17 : FVec F S256x64 .f32) (main_arg18 : FVec F S64 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_v63 main_v67

def fn_part2 {F : FTy → Type} [FloatOps F] (main_arg9 : FVec F S128x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256 .f32) (main_arg17 : FVec F S256x64 .f32) (main_arg18 : FVec F S64 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_v48 main_v49 main_v50

def fn_part1 {F : FTy → Type} [FloatOps F] (main_arg6 : FVec F S128x256 .f32) (main_arg7 : FVec F S128x256 .f32) (main_arg8 : FVec F S256 .f32) (main_arg9 : FVec F S128x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256 .f32) (main_arg17 : FVec F S256x64 .f32) (main_arg18 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg6
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : FVec F S100000x128 .f32) (main_arg2 : IVec S2x600000 32) (main_arg3 : IVec S2x600000 32) (main_arg4 : FVec F S128x256 .f32) (main_arg5 : FVec F S256 .f32) (main_arg6 : FVec F S128x256 .f32) (main_arg7 : FVec F S128x256 .f32) (main_arg8 : FVec F S256 .f32) (main_arg9 : FVec F S128x256 .f32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256 .f32) (main_arg17 : FVec F S256x64 .f32) (main_arg18 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S100000 : Shape := ⟨1, ![100000]⟩
abbrev S100000x1 : Shape := ⟨2, ![100000, 1]⟩
abbrev S100000x256 : Shape := ⟨2, ![100000, 256]⟩
abbrev S600000x256 : Shape := ⟨2, ![600000, 256]⟩
abbrev S100000x64 : Shape := ⟨2, ![100000, 64]⟩
abbrev S2000x64 : Shape := ⟨2, ![2000, 64]⟩
abbrev S1x64 : Shape := ⟨2, ![1, 64]⟩

abbrev nBuf : Space → Nat
  | .hbm => 109
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S100000x128, .f32⟩
  | .hbm, ⟨2, _⟩ => ⟨S2x600000, .i32⟩
  | .hbm, ⟨3, _⟩ => ⟨S2x600000, .i32⟩
  | .hbm, ⟨4, _⟩ => ⟨S128x256, .f32⟩
  | .hbm, ⟨5, _⟩ => ⟨S256, .f32⟩
  | .hbm, ⟨6, _⟩ => ⟨S128x256, .f32⟩
  | .hbm, ⟨7, _⟩ => ⟨S128x256, .f32⟩
  | .hbm, ⟨8, _⟩ => ⟨S256, .f32⟩
  | .hbm, ⟨9, _⟩ => ⟨S128x256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256x64, .f32⟩
  | .hbm, ⟨18, _⟩ => ⟨S64, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S50000x128, .f32⟩
  | .hbm, ⟨34, _⟩ => ⟨S600000x1, .i32⟩
  | .hbm, ⟨35, _⟩ => ⟨S50000x128, .f32⟩
  | .hbm, ⟨36, _⟩ => ⟨S_, .f32⟩
  | .hbm, ⟨37, _⟩ => ⟨S600000, .f32⟩
  | .hbm, ⟨38, _⟩ => ⟨S_, .f32⟩
  | .hbm, ⟨39, _⟩ => ⟨S50000, .f32⟩
  | .hbm, ⟨40, _⟩ => ⟨S600000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x256, .f32⟩
  | .hbm, ⟨49, _⟩ => ⟨S1x600000, .i32⟩
  | .hbm, ⟨50, _⟩ => ⟨S600000, .i32⟩
  | .hbm, ⟨51, _⟩ => ⟨S1x600000, .i32⟩
  | .hbm, ⟨52, _⟩ => ⟨S600000, .i32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S_, .f32⟩
  | .hbm, ⟨67, _⟩ => ⟨S600000, .f32⟩
  | .hbm, ⟨68, _⟩ => ⟨S_, .f32⟩
  | .hbm, ⟨69, _⟩ => ⟨S100000, .f32⟩
  | .hbm, ⟨70, _⟩ => ⟨S600000x1, .i32⟩
  | .hbm, ⟨71, _⟩ => ⟨S100000, .f32⟩
  | .hbm, ⟨72, _⟩ => ⟨S_, .f32⟩
  | .hbm, ⟨73, _⟩ => ⟨S100000, .f32⟩
  | .hbm, ⟨74, _⟩ => ⟨S100000, .f32⟩
  | .hbm, ⟨75, _⟩ => ⟨S100000x1, .f32⟩
  | .hbm, ⟨76, _⟩ => ⟨S100000x128, .f32⟩
  | .hbm, ⟨77, _⟩ => ⟨S100000x128, .f32⟩
  | .hbm, ⟨78, _⟩ => ⟨S100000x256, .f32⟩
  | .hbm, ⟨79, _⟩ => ⟨S1x600000, .i32⟩
  | .hbm, ⟨80, _⟩ => ⟨S600000, .i32⟩
  | .hbm, ⟨81, _⟩ => ⟨S1x600000, .i32⟩
  | .hbm, ⟨82, _⟩ => ⟨S600000, .i32⟩
  | .hbm, ⟨83, _⟩ => ⟨S_, .i32⟩
  | .hbm, ⟨84, _⟩ => ⟨S600000, .i32⟩
  | .hbm, ⟨85, _⟩ => ⟨S600000, .i1⟩
  | .hbm, ⟨86, _⟩ => ⟨S_, .i32⟩
  | .hbm, ⟨87, _⟩ => ⟨S600000, .i32⟩
  | .hbm, ⟨88, _⟩ => ⟨S600000, .i32⟩
  | .hbm, ⟨89, _⟩ => ⟨S600000, .i32⟩
  | .hbm, ⟨90, _⟩ => ⟨S600000x1, .i32⟩
  | .hbm, ⟨91, _⟩ => ⟨S600000x256, .f32⟩
  | .hbm, ⟨92, _⟩ => ⟨S_, .f32⟩
  | .hbm, ⟨93, _⟩ => ⟨S100000x256, .f32⟩
  | .hbm, ⟨94, _⟩ => ⟨S600000x1, .i32⟩
  | .hbm, ⟨95, _⟩ => ⟨S100000x256, .f32⟩
  | .hbm, ⟨96, _⟩ => ⟨S_, .f32⟩
  | .hbm, ⟨97, _⟩ => ⟨S600000, .f32⟩
  | .hbm, ⟨98, _⟩ => ⟨S_, .f32⟩
  | .hbm, ⟨99, _⟩ => ⟨S100000, .f32⟩
  | .hbm, ⟨100, _⟩ => ⟨S600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x256, .f32⟩
  | .hbm, ⟨107, _⟩ => ⟨S100000x256, .f32⟩
  | .hbm, ⟨108, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S256, .f32⟩
  | .local _ .vmem, ⟨6, _⟩ => ⟨S128x256, .f32⟩
  | .local _ .vmem, ⟨7, _⟩ => ⟨S256x256, .f32⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x256, .f32⟩
  | .local _ .vmem, ⟨16, _⟩ => ⟨S256, .f32⟩
  | .local _ .vmem, ⟨17, _⟩ => ⟨S128x256, .f32⟩
  | .local _ .vmem, ⟨18, _⟩ => ⟨S256x256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S256, .f32⟩
  | .local _ .vmem, ⟨28, _⟩ => ⟨S256x256, .f32⟩
  | .local _ .vmem, ⟨29, _⟩ => ⟨S256x64, .f32⟩
  | .local _ .vmem, ⟨30, _⟩ => ⟨S64, .f32⟩
  | .local _ .vmem, ⟨31, _⟩ => ⟨S2000x64, .f32⟩
  | .local _ .vmem, ⟨32, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_c_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_9 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_10 : Ref sig .tc := ⟨.hbm, 83, rfl⟩
abbrev main_v52 : Ref sig .tc := ⟨.hbm, 84, rfl⟩
abbrev main_v53 : Ref sig .tc := ⟨.hbm, 85, rfl⟩
abbrev main_c_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_13 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_15 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem7_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S2000x256_S2000x256 : S2000x256.ShapeCasts S2000x256
  inb_S256x64_S256x64_0_0 : ∀ a, (![0, 0] : Fin 2 → Nat) a + S256x64.size a ≤ S256x64.size a
  h_S256x64 : 0 < S256x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S50000x256_S600000x1_S600000x256_1_0_n_n_0_1_1256_wf : GatherDims.WF S50000x256 S600000x1 S600000x256 [1] [0] [] [0] [] 1 ![1, 256]
  scatter_S100000x256_S600000x1_S600000x256_1_0_0_1_wf : ScatterDims.WF S100000x256 S600000x1 S600000x256 [1] [0] [0] 1
  dot_S2000x256_S256x64_S2000x64_1_0_0_1_n_n_wf : DotDims.WF S2000x256 S256x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x256.size a ≤ S128x256.size a
  hwx1_4 : ∀ i : grid1.Coords, EltTy.bits .f32 = 32 ∨ (Rect.block (s := S128x256) S128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S100000x256.size a
  hwx1_7 : ∀ i : grid1.Coords, EltTy.bits .f32 = 32 ∨ (Rect.block (s := S100000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x64.size a ≤ S256x64.size a
  hwx2_5 : ∀ i : grid2.Coords, EltTy.bits .f32 = 32 ∨ (Rect.block (s := S256x64) S256x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x64.size a ≤ S100000x64.size a
  hwx2_7 : ∀ i : grid2.Coords, EltTy.bits .f32 = 32 ∨ (Rect.block (s := S100000x64) S2000x64.size (cc2_transform_7 i) (hinb2_7 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v70) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg17) S256x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v71) S2000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S2x600000 : Shape := ⟨2, ![2, 600000]⟩
abbrev S128x256 : Shape := ⟨2, ![128, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S100000 : Shape := ⟨1, ![100000]⟩
abbrev S100000x1 : Shape := ⟨2, ![100000, 1]⟩
abbrev S100000x256 : Shape := ⟨2, ![100000, 256]⟩
abbrev S600000x256 : Shape := ⟨2, ![600000, 256]⟩
abbrev S100000x64 : Shape := ⟨2, ![100000, 64]⟩
abbrev S1x64 : Shape := ⟨2, ![1, 64]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S100000x128, .f32⟩
  | 2 => ⟨S2x600000, .i32⟩
  | 3 => ⟨S2x600000, .i32⟩
  | 4 => ⟨S128x256, .f32⟩
  | 5 => ⟨S256, .f32⟩
  | 6 => ⟨S128x256, .f32⟩
  | 7 => ⟨S128x256, .f32⟩
  | 8 => ⟨S256, .f32⟩
  | 9 => ⟨S128x256, .f32⟩
  | 10 => ⟨S256x256, .f32⟩
  | 11 => ⟨S256, .f32⟩
  | 12 => ⟨S256x256, .f32⟩
  | 13 => ⟨S256x256, .f32⟩
  | 14 => ⟨S256, .f32⟩
  | 15 => ⟨S256x256, .f32⟩
  | 16 => ⟨S256, .f32⟩
  | 17 => ⟨S256x64, .f32⟩
  | 18 => ⟨S64, .f32⟩
  | 19 => ⟨S1x600000, .i32⟩
  | 20 => ⟨S600000, .i32⟩
  | 21 => ⟨S1x600000, .i32⟩
  | 22 => ⟨S600000, .i32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S_, .f32⟩
  | 37 => ⟨S600000, .f32⟩
  | 38 => ⟨S_, .f32⟩
  | 39 => ⟨S50000, .f32⟩
  | 40 => ⟨S600000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x128, .f32⟩
  | 47 => ⟨S50000x128, .f32⟩
  | 48 => ⟨S50000x256, .f32⟩
  | 49 => ⟨S1x256, .f32⟩
  | 50 => ⟨S50000x256, .f32⟩
  | 51 => ⟨S50000x256, .f32⟩
  | 52 => ⟨S50000x256, .f32⟩
  | 53 => ⟨S50000x256, .f32⟩
  | 54 => ⟨S_, .f32⟩
  | 55 => ⟨S50000x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S1x600000, .i32⟩
  | 65 => ⟨S600000, .i32⟩
  | 66 => ⟨S1x600000, .i32⟩
  | 67 => ⟨S600000, .i32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S600000, .f32⟩
  | 83 => ⟨S_, .f32⟩
  | 84 => ⟨S100000, .f32⟩
  | 85 => ⟨S600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S100000x256, .f32⟩
  | 94 => ⟨S1x256, .f32⟩
  | 95 => ⟨S100000x256, .f32⟩
  | 96 => ⟨S100000x256, .f32⟩
  | 97 => ⟨S100000x256, .f32⟩
  | 98 => ⟨S100000x256, .f32⟩
  | 99 => ⟨S_, .f32⟩
  | 100 => ⟨S100000x256, .f32⟩
  | 101 => ⟨S100000x256, .f32⟩
  | 102 => ⟨S100000x256, .f32⟩
  | 103 => ⟨S1x256, .f32⟩
  | 104 => ⟨S100000x256, .f32⟩
  | 105 => ⟨S100000x256, .f32⟩
  | 106 => ⟨S_, .f32⟩
  | 107 => ⟨S100000x256, .f32⟩
  | 108 => ⟨S100000x256, .f32⟩
  | 109 => ⟨S1x600000, .i32⟩
  | 110 => ⟨S600000, .i32⟩
  | 111 => ⟨S1x600000, .i32⟩
  | 112 => ⟨S600000, .i32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x256, .f32⟩
  | 122 => ⟨S_, .f32⟩
  | 123 => ⟨S100000x256, .f32⟩
  | 124 => ⟨S600000x1, .i32⟩
  | 125 => ⟨S100000x256, .f32⟩
  | 126 => ⟨S_, .f32⟩
  | 127 => ⟨S600000, .f32⟩
  | _ => ⟨S50000x128, .f32⟩

abbrev hbmTy0_1 (i : Nat) : BufTy := match i % 128 with
  | 0 => ⟨S_, .f32⟩
  | 1 => ⟨S100000, .f32⟩
  | 2 => ⟨S600000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x256, .f32⟩
  | 9 => ⟨S100000x256, .f32⟩
  | 10 => ⟨S100000x256, .f32⟩
  | 11 => ⟨S1x256, .f32⟩
  | 12 => ⟨S100000x256, .f32⟩
  | 13 => ⟨S100000x256, .f32⟩
  | 14 => ⟨S100000x256, .f32⟩
  | 15 => ⟨S100000x256, .f32⟩
  | 16 => ⟨S_, .f32⟩
  | 17 => ⟨S100000x256, .f32⟩
  | 18 => ⟨S100000x256, .f32⟩
  | 19 => ⟨S100000x64, .f32⟩
  | 20 => ⟨S1x64, .f32⟩
  | 21 => ⟨S100000x64, .f32⟩
  | 22 => ⟨S100000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_call0_cst : Ref sig .tc := ⟨.hbm, 54, rfl⟩
abbrev main_call0_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_call1_cst : Ref sig .tc := ⟨.hbm, 61, rfl⟩
abbrev main_call1_v0 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_c_4 : Ref sig .tc := ⟨.hbm, 68, rfl⟩
abbrev main_v39 : Ref sig .tc := ⟨.hbm, 69, rfl⟩
abbrev main_v40 : Ref sig .tc := ⟨.hbm, 70, rfl⟩
abbrev main_c_5 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_7 : Ref sig .tc := ⟨.hbm, 81, rfl⟩
abbrev main_v49 : Ref sig .tc := ⟨.hbm, 82, rfl⟩
abbrev main_cst_8 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call2_cst : Ref sig .tc := ⟨.hbm, 99, rfl⟩
abbrev main_call2_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_cst : Ref sig .tc := ⟨.hbm, 106, rfl⟩
abbrev main_call3_v0 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_c_10 : Ref sig .tc := ⟨.hbm, 113, rfl⟩
abbrev main_v74 : Ref sig .tc := ⟨.hbm, 114, rfl⟩
abbrev main_v75 : Ref sig .tc := ⟨.hbm, 115, rfl⟩
abbrev main_c_11 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_12 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_13 : Ref sig .tc := ⟨.hbm, 126, rfl⟩
abbrev main_v84 : Ref sig .tc := ⟨.hbm, 127, rfl⟩
abbrev main_cst_14 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_15 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call4_cst : Ref sig .tc := ⟨.hbm, 144, rfl⟩
abbrev main_call4_v0 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x256_S100000x256_1_0_0_1_n_n_wf : DotDims.WF S100000x128 S128x256 S100000x256 [1] [0] [0] [1] [] []
  dot_S100000x256_S256x256_S100000x256_1_0_0_1_n_n_wf : DotDims.WF S100000x256 S256x256 S100000x256 [1] [0] [0] [1] [] []
  gather_S50000x256_S600000x1_S600000x256_1_0_n_n_0_1_1256_wf : GatherDims.WF S50000x256 S600000x1 S600000x256 [1] [0] [] [0] [] 1 ![1, 256]
  scatter_S100000x256_S600000x1_S600000x256_1_0_0_1_wf : ScatterDims.WF S100000x256 S600000x1 S600000x256 [1] [0] [0] 1
  dot_S100000x256_S256x64_S100000x64_1_0_0_1_n_n_wf : DotDims.WF S100000x256 S256x64 S100000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S100000x256_S600000x1_S600000x256_1_0_0_1 : ScatterDims S100000x256 S600000x1 S600000x256 where
  updateWindowDims := [1]
  insertedWindowDims := [0]
  scatterDimsToOperandDims := [0]
  indexVectorDim := 1
  wf := scatter_S100000x256_S600000x1_S600000x256_1_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.KRun.lean ====
import proofs.«111290_j48816598286984_1_alg».proof.Proof.Gen.KernelIdeal.Frame

/-!
# The blockwise program's run, with every buffer's final contents kept

The program is three regions among three stretches of whole-array operations.  Its run ends with every buffer of the
TensorCore that outlives a region holding the contents of the last boundary of the fold through the program
(`Gen.W6`): the launch contents pushed through the first stretch, the first region's write-backs, the second
stretch, and so on.  That one statement gives both that the arguments end as launched and what the result array holds.
-/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives the regions ends at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.KernelIdeal.Whole

end
-- ==== Proof.LibAffine.lean ====
import Idealize.ShloMosaic.Lib.ValueIdx
import Idealize.ShloMosaic.Lib.Pipeline.Value
import Idealize.ShloMosaic.Lib.KernelVsHost
import Idealize.ShloMosaic.PureOps.Ideal.Laws

/-!
# An affine layer and a biased rectifier, row by row, at the exact extended reals

For a matrix `X` of `m` rows and `k` columns, a matrix `W` of `k` rows and `n` columns and a one-row matrix `Y`
of `n` entries, the affine layer is `(r, j) ↦ (∑ c, X (r, c) · W (c, j)) + Y (0, j)`; the biased rectifier is
`(r, j) ↦ max (X (r, j) + Y (0, j)) 0`.  Both are stated here as functions of whole arrays, together with their
spellings by the host's operations (a contraction, a broadcast of the row along both axes, a sum, a maximum with the
zero array), and with the fact that adding the zero row changes nothing: `x + 0 = x` for every extended real, the
infinities included.
-/

noncomputable section

namespace Cert.LibAffine

open Idealize.ShloMosaic Idealize.ShloMosaic.ValueIdx

variable {m k n : ℕ}

/-- The host's contraction of the second axis of `A` with the first of `B`, read at `(a, b)`: the sum over the
    contracted coordinate of the products of the entries. -/
theorem hostDot_plain_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The affine layer: row `r` of `X` against column `j` of `W`, plus entry `j` of the row `Y`. -/
def affine (X : (⟨2, ![m, k]⟩ : Shape).Idx → EReal) (W : (⟨2, ![k, n]⟩ : Shape).Idx → EReal)
    (Y : (⟨2, ![1, n]⟩ : Shape).Idx → EReal) : (⟨2, ![m, n]⟩ : Shape).Idx → EReal :=
  fun i => (∑ c : Fin k, X (ix2 (i 0) c) * W (ix2 c (i 1))) + Y (ix2 (0 : Fin 1) (i 1))

theorem affine_apply (X : (⟨2, ![m, k]⟩ : Shape).Idx → EReal) (W : (⟨2, ![k, n]⟩ : Shape).Idx → EReal)
    (Y : (⟨2, ![1, n]⟩ : Shape).Idx → EReal) (p : Fin m) (q : Fin n) :
    affine X W Y (ix2 p q) = (∑ c : Fin k, X (ix2 p c) * W (ix2 c q)) + Y (ix2 (0 : Fin 1) q) := rfl

/-- The biased rectifier: entry `(r, j)` of `X` plus entry `j` of the row `Y`, or zero if that is larger. -/
def biasRelu (X : (⟨2, ![m, n]⟩ : Shape).Idx → EReal) (Y : (⟨2, ![1, n]⟩ : Shape).Idx → EReal) :
    (⟨2, ![m, n]⟩ : Shape).Idx → EReal :=
  fun i => max (X i + Y (ix2 (0 : Fin 1) (i 1))) 0

theorem biasRelu_apply (X : (⟨2, ![m, n]⟩ : Shape).Idx → EReal) (Y : (⟨2, ![1, n]⟩ : Shape).Idx → EReal)
    (p : Fin m) (q : Fin n) : biasRelu X Y (ix2 p q) = max (X (ix2 p q) + Y (ix2 (0 : Fin 1) q)) 0 := rfl

/-- The affine layer in the host's spelling: the contraction, plus the row laid down every row. -/
theorem affine_eq_host
    (w : DotDims.WF ⟨2, ![m, k]⟩ ⟨2, ![k, n]⟩ ⟨2, ![m, n]⟩ [1] [0] [0] [1] [] [])
    (prec : Option ContractPrecision)
    (hd : (⟨2, ![1, n]⟩ : Shape).BroadcastsInDim ⟨2, ![m, n]⟩ ![0, 1])
    (X : FVec Ideal ⟨2, ![m, k]⟩ .f32) (W : FVec Ideal ⟨2, ![k, n]⟩ .f32) (Y : FVec Ideal ⟨2, ![1, n]⟩ .f32) :
    affine X W Y
      = addf (Host.dotGeneral (⟨[1], [0], [0], [1], [], [], w⟩ : DotDims _ _ _) prec X W)
          (broadcastInDim ⟨2, ![m, n]⟩ ![0, 1] hd Y) := by
  funext i
  obtain ⟨p, q, rfl⟩ : ∃ (p : Fin m) (q : Fin n), i = ix2 p q := ⟨i 0, i 1, eq_ix2 i⟩
  show _ = FloatOps.addf (Host.dotGeneral _ prec X W (ix2 p q)) (broadcastInDim _ ![0, 1] hd Y (ix2 p q))
  rw [hostDot_plain_apply, broadcastInDim_oneRow_apply]
  rfl

/-- The zero row adds nothing: the affine layer with the zero row is the contraction alone. -/
theorem affine_zero_eq_host
    (w : DotDims.WF ⟨2, ![m, k]⟩ ⟨2, ![k, n]⟩ ⟨2, ![m, n]⟩ [1] [0] [0] [1] [] [])
    (prec : Option ContractPrecision)
    (X : FVec Ideal ⟨2, ![m, k]⟩ .f32) (W : FVec Ideal ⟨2, ![k, n]⟩ .f32) (Y : FVec Ideal ⟨2, ![1, n]⟩ .f32)
    (hY : ∀ j, Y j = 0) :
    affine X W Y = Host.dotGeneral (⟨[1], [0], [0], [1], [], [], w⟩ : DotDims _ _ _) prec X W := by
  funext i
  obtain ⟨p, q, rfl⟩ : ∃ (p : Fin m) (q : Fin n), i = ix2 p q := ⟨i 0, i 1, eq_ix2 i⟩
  rw [hostDot_plain_apply, affine_apply, hY, add_zero]

/-- The biased rectifier in the host's spelling: the sum with the row laid down every row, then the maximum with the
    zero array. -/
theorem biasRelu_eq_host
    (hd : (⟨2, ![1, n]⟩ : Shape).BroadcastsInDim ⟨2, ![m, n]⟩ ![0, 1])
    (hz : (⟨0, ![]⟩ : Shape).BroadcastsInDim ⟨2, ![m, n]⟩ ![])
    (X : FVec Ideal ⟨2, ![m, n]⟩ .f32) (Y : FVec Ideal ⟨2, ![1, n]⟩ .f32) :
    biasRelu X Y
      = maximumf (addf X (broadcastInDim ⟨2, ![m, n]⟩ ![0, 1] hd Y))
          (broadcastInDim ⟨2, ![m, n]⟩ ![] hz (constant ⟨0, ![]⟩ .f32 0x00000000#32)) := by
  funext i
  obtain ⟨p, q, rfl⟩ : ∃ (p : Fin m) (q : Fin n), i = ix2 p q := ⟨i 0, i 1, eq_ix2 i⟩
  show _ = FloatOps.maximumf (FloatOps.addf (X (ix2 p q)) (broadcastInDim _ ![0, 1] hd Y (ix2 p q)))
    (broadcastInDim _ ![] hz (constant ⟨0, ![]⟩ .f32 0x00000000#32) (ix2 p q))
  rw [broadcastInDim_oneRow_apply, broadcastInDim_apply ![] hz _ (ix2 p q) ix0 (fun a => a.elim0)]
  show _ = max (X (ix2 p q) + Y (ix2 (0 : Fin 1) q)) (Ideal.ofBits .f32 0x00000000#32)
  rw [Ideal.ofBits_zero_f32]
  rfl

end Cert.LibAffine

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibSageStage.lean ====
import Idealize.ShloMosaic.Lib.ValueIdx
import Idealize.ShloMosaic.Lib.Pipeline.Value
import Idealize.ShloMosaic.Lib.KernelVsHost
import Idealize.ShloMosaic.PureOps.Ideal.Laws
import proofs.«111290_j48816598286984_1_alg».proof.Proof.LibAffine
import proofs.«111290_j48816598286984_1_alg».proof.Proof.LibDotIdx

/-!
# One stage of the network: a mean-aggregating graph convolution followed by a dense layer

For a matrix `M` of aggregated neighbour features and a matrix `X` of the destination nodes' own features (both
`m` rows, `k` columns), two projections `Wl`, `Wr` (`k` by `h`), a bias `bl` of `h` entries, a dense layer `W`
(`h` by `n`) and its bias `b`, row `r` of the stage is

  hidden (r, j) = max (∑ c, M (r, c) · Wl (c, j) + ∑ c, X (r, c) · Wr (c, j) + bl j) 0
  stage  (r, q) = ∑ j, hidden (r, j) · W (j, q) + b q          (followed, in two of the three stages, by max · 0).

Row `r` of the result depends on row `r` of `M` and of `X` only, which is why the computation may be cut into blocks
of rows.  Two spellings of this function are met: one contracts, adds the two products and then the bias row laid
along the rows; the other adds the bias row to the first product and then the second product.  Addition of extended
reals is commutative and associative (the infinities included), so `(a + b) + c = (a + c) + b` joins them.
-/

noncomputable section

namespace Cert.Sage

open Idealize.ShloMosaic Idealize.ShloMosaic.ValueIdx

variable {m k h n : ℕ}

/-! ## The function -/

/-- The rectified hidden layer: both projections, the bias, and the maximum with zero. -/
def hidden (M X : (⟨2, ![m, k]⟩ : Shape).Idx → EReal) (Wl : (⟨2, ![k, h]⟩ : Shape).Idx → EReal)
    (bl : (⟨1, ![h]⟩ : Shape).Idx → EReal) (Wr : (⟨2, ![k, h]⟩ : Shape).Idx → EReal) :
    (⟨2, ![m, h]⟩ : Shape).Idx → EReal :=
  fun i => max ((∑ c : Fin k, M (ix2 (i 0) c) * Wl (ix2 c (i 1))) + (∑ c : Fin k, X (ix2 (i 0) c) * Wr (ix2 c (i 1)))
    + bl (ix1 (i 1))) 0

/-- The hidden layer read at `(p, q)`. -/
theorem hidden_apply (M X : (⟨2, ![m, k]⟩ : Shape).Idx → EReal) (Wl : (⟨2, ![k, h]⟩ : Shape).Idx → EReal)
    (bl : (⟨1, ![h]⟩ : Shape).Idx → EReal) (Wr : (⟨2, ![k, h]⟩ : Shape).Idx → EReal) (p : Fin m) (q : Fin h) :
    hidden M X Wl bl Wr (ix2 p q)
      = max ((∑ c : Fin k, M (ix2 p c) * Wl (ix2 c q)) + (∑ c : Fin k, X (ix2 p c) * Wr (ix2 c q)) + bl (ix1 q)) 0 := rfl

/-- A dense layer: a row against a column of the weights, plus the bias entry. -/
def dense (H : (⟨2, ![m, h]⟩ : Shape).Idx → EReal) (W : (⟨2, ![h, n]⟩ : Shape).Idx → EReal)
    (b : (⟨1, ![n]⟩ : Shape).Idx → EReal) : (⟨2, ![m, n]⟩ : Shape).Idx → EReal :=
  fun i => (∑ c : Fin h, H (ix2 (i 0) c) * W (ix2 c (i 1))) + b (ix1 (i 1))

/-- The dense layer read at `(p, q)`. -/
theorem dense_apply (H : (⟨2, ![m, h]⟩ : Shape).Idx → EReal) (W : (⟨2, ![h, n]⟩ : Shape).Idx → EReal)
    (b : (⟨1, ![n]⟩ : Shape).Idx → EReal) (p : Fin m) (q : Fin n) :
    dense H W b (ix2 p q) = (∑ c : Fin h, H (ix2 p c) * W (ix2 c q)) + b (ix1 q) := rfl

/-- The maximum with zero, entry by entry. -/
def rect {s : Shape} (Y : s.Idx → EReal) : s.Idx → EReal := fun i => max (Y i) 0

/-- A stage without a final rectifier. -/
def stage (M X : (⟨2, ![m, k]⟩ : Shape).Idx → EReal) (Wl : (⟨2, ![k, h]⟩ : Shape).Idx → EReal)
    (bl : (⟨1, ![h]⟩ : Shape).Idx → EReal) (Wr : (⟨2, ![k, h]⟩ : Shape).Idx → EReal)
    (W : (⟨2, ![h, n]⟩ : Shape).Idx → EReal) (b : (⟨1, ![n]⟩ : Shape).Idx → EReal) :
    (⟨2, ![m, n]⟩ : Shape).Idx → EReal :=
  dense (hidden M X Wl bl Wr) W b

/-- A stage with its final rectifier. -/
def stageRect (M X : (⟨2, ![m, k]⟩ : Shape).Idx → EReal) (Wl : (⟨2, ![k, h]⟩ : Shape).Idx → EReal)
    (bl : (⟨1, ![h]⟩ : Shape).Idx → EReal) (Wr : (⟨2, ![k, h]⟩ : Shape).Idx → EReal)
    (W : (⟨2, ![h, n]⟩ : Shape).Idx → EReal) (b : (⟨1, ![n]⟩ : Shape).Idx → EReal) :
    (⟨2, ![m, n]⟩ : Shape).Idx → EReal :=
  rect (stage M X Wl bl Wr W b)

/-! ## A row of the result needs that row of the two feature matrices only -/

variable {m' : ℕ}

/-- Row `p` of the hidden layer over matrices whose row `p` is row `r` of two others is row `r` of the hidden layer over
    those. -/
theorem hidden_row (M X : (⟨2, ![m, k]⟩ : Shape).Idx → EReal) (M' X' : (⟨2, ![m', k]⟩ : Shape).Idx → EReal)
    (Wl : (⟨2, ![k, h]⟩ : Shape).Idx → EReal) (bl : (⟨1, ![h]⟩ : Shape).Idx → EReal)
    (Wr : (⟨2, ![k, h]⟩ : Shape).Idx → EReal) (p : Fin m) (r : Fin m')
    (hM : ∀ c, M (ix2 p c) = M' (ix2 r c)) (hX : ∀ c, X (ix2 p c) = X' (ix2 r c)) (q : Fin h) :
    hidden M X Wl bl Wr (ix2 p q) = hidden M' X' Wl bl Wr (ix2 r q) := by
  rw [hidden_apply, hidden_apply]
  simp only [hM, hX]

/-- The same for the dense layer: its row `p` needs row `p` of its input only. -/
theorem dense_row (H : (⟨2, ![m, h]⟩ : Shape).Idx → EReal) (H' : (⟨2, ![m', h]⟩ : Shape).Idx → EReal)
    (W : (⟨2, ![h, n]⟩ : Shape).Idx → EReal) (b : (⟨1, ![n]⟩ : Shape).Idx → EReal) (p : Fin m) (r : Fin m')
    (hH : ∀ c, H (ix2 p c) = H' (ix2 r c)) (q : Fin n) :
    dense H W b (ix2 p q) = dense H' W b (ix2 r q) := by
  rw [dense_apply, dense_apply]
  simp only [hH]

/-- Row `p` of the stage over a block whose row `p` is row `r` of the whole matrices is row `r` of the stage over
    the whole matrices. -/
theorem stage_row (M X : (⟨2, ![m, k]⟩ : Shape).Idx → EReal) (M' X' : (⟨2, ![m', k]⟩ : Shape).Idx → EReal)
    (Wl : (⟨2, ![k, h]⟩ : Shape).Idx → EReal) (bl : (⟨1, ![h]⟩ : Shape).Idx → EReal)
    (Wr : (⟨2, ![k, h]⟩ : Shape).Idx → EReal) (W : (⟨2, ![h, n]⟩ : Shape).Idx → EReal)
    (b : (⟨1, ![n]⟩ : Shape).Idx → EReal) (p : Fin m) (r : Fin m')
    (hM : ∀ c, M (ix2 p c) = M' (ix2 r c)) (hX : ∀ c, X (ix2 p c) = X' (ix2 r c)) (q : Fin n) :
    stage M X Wl bl Wr W b (ix2 p q) = stage M' X' Wl bl Wr W b (ix2 r q) :=
  dense_row _ _ W b p r (fun c => hidden_row M X M' X' Wl bl Wr p r hM hX c) q

/-- The same with the final rectifier. -/
theorem stageRect_row (M X : (⟨2, ![m, k]⟩ : Shape).Idx → EReal) (M' X' : (⟨2, ![m', k]⟩ : Shape).Idx → EReal)
    (Wl : (⟨2, ![k, h]⟩ : Shape).Idx → EReal) (bl : (⟨1, ![h]⟩ : Shape).Idx → EReal)
    (Wr : (⟨2, ![k, h]⟩ : Shape).Idx → EReal) (W : (⟨2, ![h, n]⟩ : Shape).Idx → EReal)
    (b : (⟨1, ![n]⟩ : Shape).Idx → EReal) (p : Fin m) (r : Fin m')
    (hM : ∀ c, M (ix2 p c) = M' (ix2 r c)) (hX : ∀ c, X (ix2 p c) = X' (ix2 r c)) (q : Fin n) :
    stageRect M X Wl bl Wr W b (ix2 p q) = stageRect M' X' Wl bl Wr W b (ix2 r q) :=
  congrArg (fun x => max x 0) (stage_row M X M' X' Wl bl Wr W b p r hM hX q)

/-! ## A vector laid along every row, read at an index, in both spellings -/

/-- A vector cast to a one-row matrix and broadcast down the rows reads, at `(p, q)`, its entry `q`. -/
theorem rowsOfCast_apply {α : Type} (x : (⟨1, ![n]⟩ : Shape).Idx → α)
    (hs : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x hs) hb (ix2 p q) = x (ix1 q) := by
  have e1 := broadcastTo_apply (shapeCast ⟨2, ![1, n]⟩ x hs) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x hs (ix2 (0 : Fin 1) q) (ix1 q) (by
    rw [Shape.rowMajor_val_two, Shape.rowMajor_val_one]; show q.val = 0 * n + q.val; omega)
  exact e1.trans e2

/-- A vector broadcast to a one-row matrix along axis 1 and then down the rows reads, at `(p, q)`, its entry `q`. -/
theorem rowsOfBroadcast_apply {α : Type} (x : (⟨1, ![n]⟩ : Shape).Idx → α)
    (hr : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hr x) (ix2 p q) = x (ix1 q) := by
  rw [broadcastInDim_oneRow_apply]
  refine broadcastInDim_apply ![1] hr x (ix2 (0 : Fin 1) q) (ix1 q) ?_
  intro a
  match a with
  | ⟨0, _⟩ =>
    show q.val = if n = 1 then 0 else q.val
    split
    · have e : q.val < n := q.isLt; omega
    · rfl

end Cert.Sage

end
-- ==== Proof.LibSageSpellings.lean ====
import proofs.«111290_j48816598286984_1_alg».proof.Proof.LibSageStage

/-!
# The two spellings of a stage

The blockwise program computes a stage with matrix products into a zero accumulator (its operands first changed to a
narrower float format, which is the identity on extended reals), the bias vector cast to a one-row matrix and laid down
the rows, and a maximum with the constant zero.  The whole-array program computes it with contractions, the bias
broadcast to a one-row matrix and then down the rows, and a maximum with the zero array.  Each spelling is the function
`Cert.Sage.stage` (or `stageRect`); the second adds the bias before the second product, and `(a + b) + c = (a + c) + b`
on the extended reals makes that the same sum.
-/

noncomputable section

namespace Cert.Sage

open Idealize.ShloMosaic Idealize.ShloMosaic.ValueIdx

variable {m k h n : ℕ}

/-! ## The blockwise spelling -/

/-- The hidden layer in the blockwise spelling: two products into zero accumulators added, the bias row laid down the
    rows added, the maximum with the constant zero. -/
theorem kernel_hidden
    (w1 : DotDims.WF ⟨2, ![m, k]⟩ ⟨2, ![k, h]⟩ ⟨2, ![m, h]⟩ [1] [0] [0] [1] [] [])
    (prec : Option ContractPrecision) (hlt : FTy.bits .bf16 < FTy.bits .f32)
    (hs : (⟨1, ![h]⟩ : Shape).ShapeCasts ⟨2, ![1, h]⟩) (hb : (⟨2, ![1, h]⟩ : Shape).Broadcasts ⟨2, ![m, h]⟩)
    (M X : FVec Ideal ⟨2, ![m, k]⟩ .f32) (Wl Wr : FVec Ideal ⟨2, ![k, h]⟩ .f32) (bl : FVec Ideal ⟨1, ![h]⟩ .f32) :
    maximumf
      (addf
        (addf
          (matmul (⟨[1], [0], [0], [1], [], [], w1⟩ : DotDims _ _ _) prec (truncf .bf16 M hlt) (truncf .bf16 Wl hlt)
            (constant ⟨2, ![m, h]⟩ .f32 0x00000000#32))
          (matmul (⟨[1], [0], [0], [1], [], [], w1⟩ : DotDims _ _ _) prec (truncf .bf16 X hlt) (truncf .bf16 Wr hlt)
            (constant ⟨2, ![m, h]⟩ .f32 0x00000000#32)))
        (broadcastTo ⟨2, ![m, h]⟩ (shapeCast ⟨2, ![1, h]⟩ bl hs) hb))
      (broadcast ⟨2, ![m, h]⟩ (Scalar.ofBits .f32 0x00000000#32))
      = hidden M X Wl bl Wr := by
  funext i
  obtain ⟨p, q, rfl⟩ : ∃ (p : Fin m) (q : Fin h), i = ix2 p q := ⟨i 0, i 1, eq_ix2 i⟩
  rw [maximumf_apply, addf_apply, addf_apply, DotIdx.matmul_plain_zero_apply, DotIdx.matmul_plain_zero_apply,
    rowsOfCast_apply, broadcast_apply, hidden_apply]
  show max _ (Ideal.ofBits .f32 0x00000000#32) = _
  rw [Ideal.ofBits_zero_f32]
  rfl

/-- The dense layer in the blockwise spelling: a product into a zero accumulator plus the bias row laid down the rows. -/
theorem kernel_dense
    (w2 : DotDims.WF ⟨2, ![m, h]⟩ ⟨2, ![h, n]⟩ ⟨2, ![m, n]⟩ [1] [0] [0] [1] [] [])
    (prec : Option ContractPrecision) (hlt : FTy.bits .bf16 < FTy.bits .f32)
    (hs : (⟨1, ![n]⟩ : Shape).ShapeCasts ⟨2, ![1, n]⟩) (hb : (⟨2, ![1, n]⟩ : Shape).Broadcasts ⟨2, ![m, n]⟩)
    (H : FVec Ideal ⟨2, ![m, h]⟩ .f32) (W : FVec Ideal ⟨2, ![h, n]⟩ .f32) (b : FVec Ideal ⟨1, ![n]⟩ .f32) :
    addf
      (matmul (⟨[1], [0], [0], [1], [], [], w2⟩ : DotDims _ _ _) prec (truncf .bf16 H hlt) (truncf .bf16 W hlt)
        (constant ⟨2, ![m, n]⟩ .f32 0x00000000#32))
      (broadcastTo ⟨2, ![m, n]⟩ (shapeCast ⟨2, ![1, n]⟩ b hs) hb)
      = dense H W b := by
  funext i
  obtain ⟨p, q, rfl⟩ : ∃ (p : Fin m) (q : Fin n), i = ix2 p q := ⟨i 0, i 1, eq_ix2 i⟩
  rw [addf_apply, DotIdx.matmul_plain_zero_apply, rowsOfCast_apply, dense_apply]
  rfl

/-- The maximum with the splat constant zero is the rectifier. -/
theorem kernel_rect {s : Shape} (Y : FVec Ideal s .f32) :
    maximumf Y (broadcast s (Scalar.ofBits .f32 0x00000000#32)) = rect Y := by
  funext i
  rw [maximumf_apply, broadcast_apply]
  show max _ (Ideal.ofBits .f32 0x00000000#32) = _
  rw [Ideal.ofBits_zero_f32]
  rfl

/-- The blockwise program's stage, without a final rectifier. -/
theorem kernel_stage
    (w1 : DotDims.WF ⟨2, ![m, k]⟩ ⟨2, ![k, h]⟩ ⟨2, ![m, h]⟩ [1] [0] [0] [1] [] [])
    (w2 : DotDims.WF ⟨2, ![m, h]⟩ ⟨2, ![h, n]⟩ ⟨2, ![m, n]⟩ [1] [0] [0] [1] [] [])
    (prec : Option ContractPrecision) (hlt : FTy.bits .bf16 < FTy.bits .f32)
    (hs : (⟨1, ![h]⟩ : Shape).ShapeCasts ⟨2, ![1, h]⟩) (hb : (⟨2, ![1, h]⟩ : Shape).Broadcasts ⟨2, ![m, h]⟩)
    (hs' : (⟨1, ![n]⟩ : Shape).ShapeCasts ⟨2, ![1, n]⟩) (hb' : (⟨2, ![1, n]⟩ : Shape).Broadcasts ⟨2, ![m, n]⟩)
    (M X : FVec Ideal ⟨2, ![m, k]⟩ .f32) (Wl Wr : FVec Ideal ⟨2, ![k, h]⟩ .f32) (bl : FVec Ideal ⟨1, ![h]⟩ .f32)
    (W : FVec Ideal ⟨2, ![h, n]⟩ .f32) (b : FVec Ideal ⟨1, ![n]⟩ .f32) :
    addf
      (matmul (⟨[1], [0], [0], [1], [], [], w2⟩ : DotDims _ _ _) prec
        (truncf .bf16
          (maximumf
            (addf
              (addf
                (matmul (⟨[1], [0], [0], [1], [], [], w1⟩ : DotDims _ _ _) prec (truncf .bf16 M hlt)
                  (truncf .bf16 Wl hlt) (constant ⟨2, ![m, h]⟩ .f32 0x00000000#32))
                (matmul (⟨[1], [0], [0], [1], [], [], w1⟩ : DotDims _ _ _) prec (truncf .bf16 X hlt)
                  (truncf .bf16 Wr hlt) (constant ⟨2, ![m, h]⟩ .f32 0x00000000#32)))
              (broadcastTo ⟨2, ![m, h]⟩ (shapeCast ⟨2, ![1, h]⟩ bl hs) hb))
            (broadcast ⟨2, ![m, h]⟩ (Scalar.ofBits .f32 0x00000000#32))) hlt)
        (truncf .bf16 W hlt) (constant ⟨2, ![m, n]⟩ .f32 0x00000000#32))
      (broadcastTo ⟨2, ![m, n]⟩ (shapeCast ⟨2, ![1, n]⟩ b hs') hb')
      = stage M X Wl bl Wr W b := by
  rw [kernel_hidden, kernel_dense]
  rfl

/-- The blockwise program's stage with its final rectifier. -/
theorem kernel_stageRect
    (w1 : DotDims.WF ⟨2, ![m, k]⟩ ⟨2, ![k, h]⟩ ⟨2, ![m, h]⟩ [1] [0] [0] [1] [] [])
    (w2 : DotDims.WF ⟨2, ![m, h]⟩ ⟨2, ![h, n]⟩ ⟨2, ![m, n]⟩ [1] [0] [0] [1] [] [])
    (prec : Option ContractPrecision) (hlt : FTy.bits .bf16 < FTy.bits .f32)
    (hs : (⟨1, ![h]⟩ : Shape).ShapeCasts ⟨2, ![1, h]⟩) (hb : (⟨2, ![1, h]⟩ : Shape).Broadcasts ⟨2, ![m, h]⟩)
    (hs' : (⟨1, ![n]⟩ : Shape).ShapeCasts ⟨2, ![1, n]⟩) (hb' : (⟨2, ![1, n]⟩ : Shape).Broadcasts ⟨2, ![m, n]⟩)
    (M X : FVec Ideal ⟨2, ![m, k]⟩ .f32) (Wl Wr : FVec Ideal ⟨2, ![k, h]⟩ .f32) (bl : FVec Ideal ⟨1, ![h]⟩ .f32)
    (W : FVec Ideal ⟨2, ![h, n]⟩ .f32) (b : FVec Ideal ⟨1, ![n]⟩ .f32) :
    maximumf
      (addf
        (matmul (⟨[1], [0], [0], [1], [], [], w2⟩ : DotDims _ _ _) prec
          (truncf .bf16
            (maximumf
              (addf
                (addf
                  (matmul (⟨[1], [0], [0], [1], [], [], w1⟩ : DotDims _ _ _) prec (truncf .bf16 M hlt)
                    (truncf .bf16 Wl hlt) (constant ⟨2, ![m, h]⟩ .f32 0x00000000#32))
                  (matmul (⟨[1], [0], [0], [1], [], [], w1⟩ : DotDims _ _ _) prec (truncf .bf16 X hlt)
                    (truncf .bf16 Wr hlt) (constant ⟨2, ![m, h]⟩ .f32 0x00000000#32)))
                (broadcastTo ⟨2, ![m, h]⟩ (shapeCast ⟨2, ![1, h]⟩ bl hs) hb))
              (broadcast ⟨2, ![m, h]⟩ (Scalar.ofBits .f32 0x00000000#32))) hlt)
          (truncf .bf16 W hlt) (constant ⟨2, ![m, n]⟩ .f32 0x00000000#32))
        (broadcastTo ⟨2, ![m, n]⟩ (shapeCast ⟨2, ![1, n]⟩ b hs') hb'))
      (broadcast ⟨2, ![m, n]⟩ (Scalar.ofBits .f32 0x00000000#32))
      = stageRect M X Wl bl Wr W b := by
  rw [kernel_stage, kernel_rect]
  rfl

/-! ## The whole-array spelling -/

/-- The hidden layer in the whole-array spelling: the bias row is added to the first contraction and the second
    contraction after it; `(a + b) + c = (a + c) + b` brings the sum to the function's order. -/
theorem host_hidden
    (w1 : DotDims.WF ⟨2, ![m, k]⟩ ⟨2, ![k, h]⟩ ⟨2, ![m, h]⟩ [1] [0] [0] [1] [] [])
    (prec : Option ContractPrecision)
    (hr : (⟨1, ![h]⟩ : Shape).BroadcastsInDim ⟨2, ![1, h]⟩ ![1])
    (hd : (⟨2, ![1, h]⟩ : Shape).BroadcastsInDim ⟨2, ![m, h]⟩ ![0, 1])
    (hz : (⟨0, ![]⟩ : Shape).BroadcastsInDim ⟨2, ![m, h]⟩ ![])
    (M X : FVec Ideal ⟨2, ![m, k]⟩ .f32) (Wl Wr : FVec Ideal ⟨2, ![k, h]⟩ .f32) (bl : FVec Ideal ⟨1, ![h]⟩ .f32) :
    maximumf
      (addf
        (addf (Host.dotGeneral (⟨[1], [0], [0], [1], [], [], w1⟩ : DotDims _ _ _) prec M Wl)
          (broadcastInDim ⟨2, ![m, h]⟩ ![0, 1] hd (broadcastInDim ⟨2, ![1, h]⟩ ![1] hr bl)))
        (Host.dotGeneral (⟨[1], [0], [0], [1], [], [], w1⟩ : DotDims _ _ _) prec X Wr))
      (broadcastInDim ⟨2, ![m, h]⟩ ![] hz (constant ⟨0, ![]⟩ .f32 0x00000000#32))
      = hidden M X Wl bl Wr := by
  funext i
  obtain ⟨p, q, rfl⟩ : ∃ (p : Fin m) (q : Fin h), i = ix2 p q := ⟨i 0, i 1, eq_ix2 i⟩
  rw [maximumf_apply, addf_apply, addf_apply, LibAffine.hostDot_plain_apply, LibAffine.hostDot_plain_apply,
    rowsOfBroadcast_apply, broadcastInDim_apply ![] hz _ (ix2 p q) ix0 (fun a => a.elim0), hidden_apply]
  show max _ (Ideal.ofBits .f32 0x00000000#32) = _
  rw [Ideal.ofBits_zero_f32, add_right_comm]

/-- The dense layer in the whole-array spelling: a contraction plus the bias broadcast to a row and down the rows. -/
theorem host_dense
    (w2 : DotDims.WF ⟨2, ![m, h]⟩ ⟨2, ![h, n]⟩ ⟨2, ![m, n]⟩ [1] [0] [0] [1] [] [])
    (prec : Option ContractPrecision)
    (hr : (⟨1, ![n]⟩ : Shape).BroadcastsInDim ⟨2, ![1, n]⟩ ![1])
    (hd : (⟨2, ![1, n]⟩ : Shape).BroadcastsInDim ⟨2, ![m, n]⟩ ![0, 1])
    (H : FVec Ideal ⟨2, ![m, h]⟩ .f32) (W : FVec Ideal ⟨2, ![h, n]⟩ .f32) (b : FVec Ideal ⟨1, ![n]⟩ .f32) :
    addf (Host.dotGeneral (⟨[1], [0], [0], [1], [], [], w2⟩ : DotDims _ _ _) prec H W)
      (broadcastInDim ⟨2, ![m, n]⟩ ![0, 1] hd (broadcastInDim ⟨2, ![1, n]⟩ ![1] hr b))
      = dense H W b := by
  funext i
  obtain ⟨p, q, rfl⟩ : ∃ (p : Fin m) (q : Fin n), i = ix2 p q := ⟨i 0, i 1, eq_ix2 i⟩
  rw [addf_apply, LibAffine.hostDot_plain_apply, rowsOfBroadcast_apply, dense_apply]

/-- The maximum with the broadcast scalar zero is the rectifier. -/
theorem host_rect
    (hz : (⟨0, ![]⟩ : Shape).BroadcastsInDim ⟨2, ![m, n]⟩ ![]) (Y : FVec Ideal ⟨2, ![m, n]⟩ .f32) :
    maximumf Y (broadcastInDim ⟨2, ![m, n]⟩ ![] hz (constant ⟨0, ![]⟩ .f32 0x00000000#32)) = rect Y := by
  funext i
  rw [maximumf_apply, broadcastInDim_apply ![] hz _ i ix0 (fun a => a.elim0)]
  show max _ (Ideal.ofBits .f32 0x00000000#32) = _
  rw [Ideal.ofBits_zero_f32]
  rfl

/-- The whole-array program's stage, without a final rectifier. -/
theorem host_stage
    (w1 : DotDims.WF ⟨2, ![m, k]⟩ ⟨2, ![k, h]⟩ ⟨2, ![m, h]⟩ [1] [0] [0] [1] [] [])
    (w2 : DotDims.WF ⟨2, ![m, h]⟩ ⟨2, ![h, n]⟩ ⟨2, ![m, n]⟩ [1] [0] [0] [1] [] [])
    (prec : Option ContractPrecision)
    (hr : (⟨1, ![h]⟩ : Shape).BroadcastsInDim ⟨2, ![1, h]⟩ ![1])
    (hd : (⟨2, ![1, h]⟩ : Shape).BroadcastsInDim ⟨2, ![m, h]⟩ ![0, 1])
    (hz : (⟨0, ![]⟩ : Shape).BroadcastsInDim ⟨2, ![m, h]⟩ ![])
    (hr' : (⟨1, ![n]⟩ : Shape).BroadcastsInDim ⟨2, ![1, n]⟩ ![1])
    (hd' : (⟨2, ![1, n]⟩ : Shape).BroadcastsInDim ⟨2, ![m, n]⟩ ![0, 1])
    (M X : FVec Ideal ⟨2, ![m, k]⟩ .f32) (Wl Wr : FVec Ideal ⟨2, ![k, h]⟩ .f32) (bl : FVec Ideal ⟨1, ![h]⟩ .f32)
    (W : FVec Ideal ⟨2, ![h, n]⟩ .f32) (b : FVec Ideal ⟨1, ![n]⟩ .f32) :
    addf
      (Host.dotGeneral (⟨[1], [0], [0], [1], [], [], w2⟩ : DotDims _ _ _) prec
        (maximumf
          (addf
            (addf (Host.dotGeneral (⟨[1], [0], [0], [1], [], [], w1⟩ : DotDims _ _ _) prec M Wl)
              (broadcastInDim ⟨2, ![m, h]⟩ ![0, 1] hd (broadcastInDim ⟨2, ![1, h]⟩ ![1] hr bl)))
            (Host.dotGeneral (⟨[1], [0], [0], [1], [], [], w1⟩ : DotDims _ _ _) prec X Wr))
          (broadcastInDim ⟨2, ![m, h]⟩ ![] hz (constant ⟨0, ![]⟩ .f32 0x00000000#32)))
        W)
      (broadcastInDim ⟨2, ![m, n]⟩ ![0, 1] hd' (broadcastInDim ⟨2, ![1, n]⟩ ![1] hr' b))
      = stage M X Wl bl Wr W b := by
  rw [host_hidden, host_dense]
  rfl

/-- The whole-array program's stage with its final rectifier. -/
theorem host_stageRect
    (w1 : DotDims.WF ⟨2, ![m, k]⟩ ⟨2, ![k, h]⟩ ⟨2, ![m, h]⟩ [1] [0] [0] [1] [] [])
    (w2 : DotDims.WF ⟨2, ![m, h]⟩ ⟨2, ![h, n]⟩ ⟨2, ![m, n]⟩ [1] [0] [0] [1] [] [])
    (prec : Option ContractPrecision)
    (hr : (⟨1, ![h]⟩ : Shape).BroadcastsInDim ⟨2, ![1, h]⟩ ![1])
    (hd : (⟨2, ![1, h]⟩ : Shape).BroadcastsInDim ⟨2, ![m, h]⟩ ![0, 1])
    (hz : (⟨0, ![]⟩ : Shape).BroadcastsInDim ⟨2, ![m, h]⟩ ![])
    (hr' : (⟨1, ![n]⟩ : Shape).BroadcastsInDim ⟨2, ![1, n]⟩ ![1])
    (hd' : (⟨2, ![1, n]⟩ : Shape).BroadcastsInDim ⟨2, ![m, n]⟩ ![0, 1])
    (hz' : (⟨0, ![]⟩ : Shape).BroadcastsInDim ⟨2, ![m, n]⟩ ![])
    (M X : FVec Ideal ⟨2, ![m, k]⟩ .f32) (Wl Wr : FVec Ideal ⟨2, ![k, h]⟩ .f32) (bl : FVec Ideal ⟨1, ![h]⟩ .f32)
    (W : FVec Ideal ⟨2, ![h, n]⟩ .f32) (b : FVec Ideal ⟨1, ![n]⟩ .f32) :
    maximumf
      (addf
        (Host.dotGeneral (⟨[1], [0], [0], [1], [], [], w2⟩ : DotDims _ _ _) prec
          (maximumf
            (addf
              (addf (Host.dotGeneral (⟨[1], [0], [0], [1], [], [], w1⟩ : DotDims _ _ _) prec M Wl)
                (broadcastInDim ⟨2, ![m, h]⟩ ![0, 1] hd (broadcastInDim ⟨2, ![1, h]⟩ ![1] hr bl)))
              (Host.dotGeneral (⟨[1], [0], [0], [1], [], [], w1⟩ : DotDims _ _ _) prec X Wr))
            (broadcastInDim ⟨2, ![m, h]⟩ ![] hz (constant ⟨0, ![]⟩ .f32 0x00000000#32)))
          W)
        (broadcastInDim ⟨2, ![m, n]⟩ ![0, 1] hd' (broadcastInDim ⟨2, ![1, n]⟩ ![1] hr' b)))
      (broadcastInDim ⟨2, ![m, n]⟩ ![] hz' (constant ⟨0, ![]⟩ .f32 0x00000000#32))
      = stageRect M X Wl bl Wr W b := by
  rw [host_stage, host_rect]
  rfl

end Cert.Sage

end
-- ==== Proof.Rows0.lean ====
import proofs.«111290_j48816598286984_1_alg».proof.Proof.Gen.KernelIdeal.Frame
import proofs.«111290_j48816598286984_1_alg».proof.Proof.LibSageSpellings
import Idealize.ShloMosaic.Lib.Pipeline.Value

/-!
# Region 0: the blocks of rows put together

The region's grid has 25 points; point `t` reads rows `2000·t … 2000·t + 1999` of the two feature matrices and the
whole of the weights and biases, and writes the same rows of the result.  One block of the result is therefore the
stage function of the region's whole arrays, restricted to the block's rows (a row of the stage needs that row of
the feature matrices only), and the 25 blocks tile the result: the result array is the stage function of the arrays
as the region finds them.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rows0

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the stage function of the blocks it loads. -/
theorem pay_eq (v0 v3 : Vec Ideal S2000x128 .f32) (v5 v7 : Vec Ideal S128x256 .f32) (v9 : Vec Ideal S256 .f32)
    (v18 : Vec Ideal S256x256 .f32) (v20 : Vec Ideal S256 .f32) :
    k0_pay1 v0 v3 v5 v7 v9 v18 v20 = Cert.Sage.stageRect v0 v3 v5 v9 v7 v18 v20 := by
  unfold k0_pay1
  simp only [shapeCast_self]
  exact Cert.Sage.kernel_stageRect _ _ _ _ _ _ _ _ v0 v3 v5 v7 v9 v18 v20

/-- What the body leaves in the output block, as the stage function of the seven input blocks. -/
theorem out_eq (x0 x1 : Vec Ideal S2000x128 .f32) (x2 : Vec Ideal S128x256 .f32) (x3 : Vec Ideal S256 .f32)
    (x4 : Vec Ideal S128x256 .f32) (x5 : Vec Ideal S256x256 .f32) (x6 : Vec Ideal S256 .f32) :
    out0_7 x0 x1 x2 x3 x4 x5 x6 = Cert.Sage.stageRect x0 x1 x2 x3 x4 x5 x6 := by
  unfold out0_7
  rw [View.canon_unit_zero hz2]
  simp only [View.ld_unit_zero (S := S2000x128) hz2, View.ld_unit_zero (S := S128x256) hz2, View.ld_unit_zero (S := S256x256) hz2, View.ld_unit_zero (S := S256) hz1]
  exact pay_eq _ _ _ _ _ _ _

/-- The index maps over the grid: the two feature windows and the result window move down the rows with the point,
    the weights' and biases' windows stay on their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## The windows that hold a whole array -/

theorem blk2 (c : Dev nD) (t : Fin cfg0.N) : (iblk0 V c 2 t : S128x256.Idx → EReal) = (V c main_arg4 : S128x256.Idx → EReal) := by
  obtain ⟨-, -, -, -, e20, e21, -⟩ := idx_facts t
  funext y
  show (V c main_arg4 : S128x256.Idx → EReal) (((cfg0.win 2).blk t).view.emb y) = _
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem blk3 (c : Dev nD) (t : Fin cfg0.N) : (iblk0 V c 3 t : S256.Idx → EReal) = (V c main_arg5 : S256.Idx → EReal) := by
  obtain ⟨-, -, -, -, -, -, e30, -⟩ := idx_facts t
  funext y
  show (V c main_arg5 : S256.Idx → EReal) (((cfg0.win 3).blk t).view.emb y) = _
  refine congrArg _ (funext fun a => Fin.ext ?_)
  match a with
  | ⟨0, _⟩ => show win0_3.index t (0 : Fin 1) * 256 + 1 * (y 0).val = (y 0).val; omega

theorem blk4 (c : Dev nD) (t : Fin cfg0.N) : (iblk0 V c 4 t : S128x256.Idx → EReal) = (V c main_arg6 : S128x256.Idx → EReal) := by
  obtain ⟨-, -, -, -, -, -, -, e40, e41, -⟩ := idx_facts t
  funext y
  show (V c main_arg6 : S128x256.Idx → EReal) (((cfg0.win 4).blk t).view.emb y) = _
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 256 + 1 * (y 1).val = (y 1).val; omega

theorem blk5 (c : Dev nD) (t : Fin cfg0.N) : (iblk0 V c 5 t : S256x256.Idx → EReal) = (V c main_arg13 : S256x256.Idx → EReal) := by
  obtain ⟨-, -, -, -, -, -, -, -, -, e50, e51, -⟩ := idx_facts t
  funext y
  show (V c main_arg13 : S256x256.Idx → EReal) (((cfg0.win 5).blk t).view.emb y) = _
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk6 (c : Dev nD) (t : Fin cfg0.N) : (iblk0 V c 6 t : S256.Idx → EReal) = (V c main_arg14 : S256.Idx → EReal) := by
  obtain ⟨-, -, -, -, -, -, -, -, -, -, -, e60, -⟩ := idx_facts t
  funext y
  show (V c main_arg14 : S256.Idx → EReal) (((cfg0.win 6).blk t).view.emb y) = _
  refine congrArg _ (funext fun a => Fin.ext ?_)
  match a with
  | ⟨0, _⟩ => show win0_6.index t (0 : Fin 1) * 256 + 1 * (y 0).val = (y 0).val; omega

/-! ## The windows that hold a block of rows -/

/-- Row `p` of point `t`'s block of the aggregated features is row `2000·t + p` of the array. -/
theorem blk0_row (c : Dev nD) (t : Fin cfg0.N) (p : Fin 2000) (r : Fin 50000) (hr : r.val = t.val * 2000 + p.val)
    (l : Fin 128) :
    (iblk0 V c 0 t : S2000x128.Idx → EReal) (ix2 p l) = (V c main_v22 : S50000x128.Idx → EReal) (ix2 r l) := by
  obtain ⟨e00, e01, -⟩ := idx_facts t
  show (V c main_v22 : S50000x128.Idx → EReal) (((cfg0.win 0).blk t).view.emb (ix2 p l)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * l.val = l.val; omega

/-- The same for the destination nodes' own features. -/
theorem blk1_row (c : Dev nD) (t : Fin cfg0.N) (p : Fin 2000) (r : Fin 50000) (hr : r.val = t.val * 2000 + p.val)
    (l : Fin 128) :
    (iblk0 V c 1 t : S2000x128.Idx → EReal) (ix2 p l) = (V c main_arg0 : S50000x128.Idx → EReal) (ix2 r l) := by
  obtain ⟨-, -, e10, e11, -⟩ := idx_facts t
  show (V c main_arg0 : S50000x128.Idx → EReal) (((cfg0.win 1).blk t).view.emb (ix2 p l)) = _
  refine congrArg _ (funext fun a => Fin.ext ?_)
  match a with
  | ⟨0, _⟩ => show win0_1.index t (0 : Fin 2) * 2000 + 1 * p.val = r.val; omega
  | ⟨1, _⟩ => show win0_1.index t (1 : Fin 2) * 128 + 1 * l.val = l.val; omega

/-! ## One write-back, and all of them -/

/-- What point `t` writes back is block `t` of the stage function of the region's arrays. -/
theorem flushed_eq (c : Dev nD) (t : Fin cfg0.N) :
    (dat0 V c).flushed 7 t = ((cfg0.win 7).blk t).view.read (Elt Ideal)
      (Cert.Sage.stageRect (V c main_v22) (V c main_arg0) (V c main_arg4) (V c main_arg5) (V c main_arg6) (V c main_arg13) (V c main_arg14)) := by
  show (cfg0.win 7).cut (grid0.coords t) ((dat0 V c).after 7 t) = _
  rw [after0_7, out_eq]
  have ht : t.val < 25 := lt_of_lt_of_eq t.isLt N_0
  obtain ⟨-, -, -, -, -, -, -, -, -, -, -, -, e70, e71⟩ := idx_facts t
  funext j
  obtain ⟨p, q, rfl⟩ : ∃ (p : Fin 2000) (q : Fin 256), j = ix2 p q := ⟨j 0, j 1, eq_ix2 j⟩
  have hp : p.val < 2000 := p.isLt
  have he : ((cfg0.win 7).blk t).view.emb (ix2 p q) = (ix2 (⟨t.val * 2000 + p.val, by omega⟩ : Fin 50000) q : S50000x256.Idx) := by
    funext a; apply Fin.ext
    match a with
    | ⟨0, _⟩ => show win0_7.index t (0 : Fin 2) * 2000 + 1 * p.val = t.val * 2000 + p.val; omega
    | ⟨1, _⟩ => show win0_7.index t (1 : Fin 2) * 256 + 1 * q.val = q.val; omega
  show Cert.Sage.stageRect (iblk0 V c 0 t) (iblk0 V c 1 t) (iblk0 V c 2 t) (iblk0 V c 3 t) (iblk0 V c 4 t)
      (iblk0 V c 5 t) (iblk0 V c 6 t) (ix2 p q)
    = (Cert.Sage.stageRect (V c main_v22) (V c main_arg0) (V c main_arg4) (V c main_arg5) (V c main_arg6) (V c main_arg13) (V c main_arg14))
      (((cfg0.win 7).blk t).view.emb (ix2 p q))
  rw [he, blk2 V c t, blk3 V c t, blk4 V c t, blk5 V c t, blk6 V c t]
  exact Cert.Sage.stageRect_row _ _ _ _ _ _ _ _ _ p ⟨t.val * 2000 + p.val, by omega⟩
    (fun l => blk0_row V c t p _ rfl l) (fun l => blk1_row V c t p _ rfl l) q

/-- An index of the result array is in point `t`'s block iff each coordinate is in the block's range. -/
theorem mem_blk (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v23).slice (win0_7.rect t)).set ↔ _
  rw [View.set_slice_whole, Rect.mem_set_unit]
  exact Iff.rfl

/-- The result array after the region: the stage function of the arrays as the region finds them.  Row `r` is in the
    block of point `r / 2000`. -/
theorem final (c : Dev nD) :
    (dat0 V c).arrAt 7 cfg0.N
      = Cert.Sage.stageRect (V c main_v22) (V c main_arg0) (V c main_arg4) (V c main_arg5) (V c main_arg6) (V c main_arg13) (V c main_arg14) :=
  (dat0 V c).arrAt_eq_of_cover 7 _ (fun t _ => flushed_eq V c t) fun i => by
    have hi0 : (i 0).val < 50000 := (i 0).isLt
    have hi1 : (i 1).val < 256 := (i 1).isLt
    have hN : cfg0.N = 25 := N_0
    refine ⟨⟨(i 0).val / 2000, by rw [hN]; omega⟩, flush0_7 _, ?_⟩
    obtain ⟨-, -, -, -, -, -, -, -, -, -, -, -, e70, e71⟩ := idx_facts ⟨(i 0).val / 2000, by rw [hN]; omega⟩
    rw [mem_blk]
    intro a
    match a with
    | ⟨0, _⟩ =>
      show win0_7.index _ (0 : Fin 2) * 2000 ≤ (i 0).val ∧ (i 0).val < win0_7.index _ (0 : Fin 2) * 2000 + 2000
      rw [e70]; show (i 0).val / 2000 * 2000 ≤ (i 0).val ∧ (i 0).val < (i 0).val / 2000 * 2000 + 2000; omega
    | ⟨1, _⟩ =>
      show win0_7.index _ (1 : Fin 2) * 256 ≤ (i 1).val ∧ (i 1).val < win0_7.index _ (1 : Fin 2) * 256 + 256
      rw [e71]; omega

end Cert.KernelIdeal.Rows0

end
-- ==== Proof.Rows1.lean ====
import proofs.«111290_j48816598286984_1_alg».proof.Proof.Gen.KernelIdeal.Frame
import proofs.«111290_j48816598286984_1_alg».proof.Proof.LibSageSpellings
import Idealize.ShloMosaic.Lib.Pipeline.Value

/-!
# Region 1: the blocks of rows put together

The region's grid has 50 points; point `t` reads rows `2000·t … 2000·t + 1999` of the two feature matrices and the
whole of the weights and biases, and writes the same rows of the result.  One block of the result is therefore the
stage function of the region's whole arrays, restricted to the block's rows (a row of the stage needs that row of
the feature matrices only), and the 50 blocks tile the result: the result array is the stage function of the arrays
as the region finds them.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rows1

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the stage function of the blocks it loads. -/
theorem pay_eq (v0 v3 : Vec Ideal S2000x128 .f32) (v5 v7 : Vec Ideal S128x256 .f32) (v9 : Vec Ideal S256 .f32)
    (v18 : Vec Ideal S256x256 .f32) (v20 : Vec Ideal S256 .f32) :
    k1_pay1 v0 v3 v5 v7 v9 v18 v20 = Cert.Sage.stageRect v0 v3 v5 v9 v7 v18 v20 := by
  unfold k1_pay1
  simp only [shapeCast_self]
  exact Cert.Sage.kernel_stageRect _ _ _ _ _ _ _ _ v0 v3 v5 v7 v9 v18 v20

/-- What the body leaves in the output block, as the stage function of the seven input blocks. -/
theorem out_eq (x0 x1 : Vec Ideal S2000x128 .f32) (x2 : Vec Ideal S128x256 .f32) (x3 : Vec Ideal S256 .f32)
    (x4 : Vec Ideal S128x256 .f32) (x5 : Vec Ideal S256x256 .f32) (x6 : Vec Ideal S256 .f32) :
    out1_7 x0 x1 x2 x3 x4 x5 x6 = Cert.Sage.stageRect x0 x1 x2 x3 x4 x5 x6 := by
  unfold out1_7
  rw [View.canon_unit_zero hz2]
  simp only [View.ld_unit_zero (S := S2000x128) hz2, View.ld_unit_zero (S := S128x256) hz2, View.ld_unit_zero (S := S256x256) hz2, View.ld_unit_zero (S := S256) hz1]
  exact pay_eq _ _ _ _ _ _ _

/-- The index maps over the grid: the two feature windows and the result window move down the rows with the point,
    the weights' and biases' windows stay on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-! ## The windows that hold a whole array -/

theorem blk2 (c : Dev nD) (t : Fin cfg1.N) : (iblk1 V c 2 t : S128x256.Idx → EReal) = (V c main_arg7 : S128x256.Idx → EReal) := by
  obtain ⟨-, -, -, -, e20, e21, -⟩ := idx_facts t
  funext y
  show (V c main_arg7 : S128x256.Idx → EReal) (((cfg1.win 2).blk t).view.emb y) = _
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 256 + 1 * (y 1).val = (y 1).val; omega

theorem blk3 (c : Dev nD) (t : Fin cfg1.N) : (iblk1 V c 3 t : S256.Idx → EReal) = (V c main_arg8 : S256.Idx → EReal) := by
  obtain ⟨-, -, -, -, -, -, e30, -⟩ := idx_facts t
  funext y
  show (V c main_arg8 : S256.Idx → EReal) (((cfg1.win 3).blk t).view.emb y) = _
  refine congrArg _ (funext fun a => Fin.ext ?_)
  match a with
  | ⟨0, _⟩ => show win1_3.index t (0 : Fin 1) * 256 + 1 * (y 0).val = (y 0).val; omega

theorem blk4 (c : Dev nD) (t : Fin cfg1.N) : (iblk1 V c 4 t : S128x256.Idx → EReal) = (V c main_arg9 : S128x256.Idx → EReal) := by
  obtain ⟨-, -, -, -, -, -, -, e40, e41, -⟩ := idx_facts t
  funext y
  show (V c main_arg9 : S128x256.Idx → EReal) (((cfg1.win 4).blk t).view.emb y) = _
  refine congrArg _ (funext fun a => Fin.ext ?_)
  match a with
  | ⟨0, _⟩ => show win1_4.index t (0 : Fin 2) * 128 + 1 * (y 0).val = (y 0).val; omega
  | ⟨1, _⟩ => show win1_4.index t (1 : Fin 2) * 256 + 1 * (y 1).val = (y 1).val; omega

theorem blk5 (c : Dev nD) (t : Fin cfg1.N) : (iblk1 V c 5 t : S256x256.Idx → EReal) = (V c main_arg15 : S256x256.Idx → EReal) := by
  obtain ⟨-, -, -, -, -, -, -, -, -, e50, e51, -⟩ := idx_facts t
  funext y
  show (V c main_arg15 : S256x256.Idx → EReal) (((cfg1.win 5).blk t).view.emb y) = _
  refine congrArg _ (funext fun a => Fin.ext ?_)
  match a with
  | ⟨0, _⟩ => show win1_5.index t (0 : Fin 2) * 256 + 1 * (y 0).val = (y 0).val; omega
  | ⟨1, _⟩ => show win1_5.index t (1 : Fin 2) * 256 + 1 * (y 1).val = (y 1).val; omega

theorem blk6 (c : Dev nD) (t : Fin cfg1.N) : (iblk1 V c 6 t : S256.Idx → EReal) = (V c main_arg16 : S256.Idx → EReal) := by
  obtain ⟨-, -, -, -, -, -, -, -, -, -, -, e60, -⟩ := idx_facts t
  funext y
  show (V c main_arg16 : S256.Idx → EReal) (((cfg1.win 6).blk t).view.emb y) = _
  refine congrArg _ (funext fun a => Fin.ext ?_)
  match a with
  | ⟨0, _⟩ => show win1_6.index t (0 : Fin 1) * 256 + 1 * (y 0).val = (y 0).val; omega

/-! ## The windows that hold a block of rows -/

/-- Row `p` of point `t`'s block of the aggregated features is row `2000·t + p` of the array. -/
theorem blk0_row (c : Dev nD) (t : Fin cfg1.N) (p : Fin 2000) (r : Fin 100000) (hr : r.val = t.val * 2000 + p.val)
    (l : Fin 128) :
    (iblk1 V c 0 t : S2000x128.Idx → EReal) (ix2 p l) = (V c main_v46 : S100000x128.Idx → EReal) (ix2 r l) := by
  obtain ⟨e00, e01, -⟩ := idx_facts t
  show (V c main_v46 : S100000x128.Idx → EReal) (((cfg1.win 0).blk t).view.emb (ix2 p l)) = _
  refine congrArg _ (funext fun a => Fin.ext ?_)
  match a with
  | ⟨0, _⟩ => show win1_0.index t (0 : Fin 2) * 2000 + 1 * p.val = r.val; omega
  | ⟨1, _⟩ => show win1_0.index t (1 : Fin 2) * 128 + 1 * l.val = l.val; omega

/-- The same for the destination nodes' own features. -/
theorem blk1_row (c : Dev nD) (t : Fin cfg1.N) (p : Fin 2000) (r : Fin 100000) (hr : r.val = t.val * 2000 + p.val)
    (l : Fin 128) :
    (iblk1 V c 1 t : S2000x128.Idx → EReal) (ix2 p l) = (V c main_arg1 : S100000x128.Idx → EReal) (ix2 r l) := by
  obtain ⟨-, -, e10, e11, -⟩ := idx_facts t
  show (V c main_arg1 : S100000x128.Idx → EReal) (((cfg1.win 1).blk t).view.emb (ix2 p l)) = _
  refine congrArg _ (funext fun a => Fin.ext ?_)
  match a with
  | ⟨0, _⟩ => show win1_1.index t (0 : Fin 2) * 2000 + 1 * p.val = r.val; omega
  | ⟨1, _⟩ => show win1_1.index t (1 : Fin 2) * 128 + 1 * l.val = l.val; omega

/-! ## One write-back, and all of them -/

/-- What point `t` writes back is block `t` of the stage function of the region's arrays. -/
theorem flushed_eq (c : Dev nD) (t : Fin cfg1.N) :
    (dat1 V c).flushed 7 t = ((cfg1.win 7).blk t).view.read (Elt Ideal)
      (Cert.Sage.stageRect (V c main_v46) (V c main_arg1) (V c main_arg7) (V c main_arg8) (V c main_arg9) (V c main_arg15) (V c main_arg16)) := by
  show (cfg1.win 7).cut (grid1.coords t) ((dat1 V c).after 7 t) = _
  rw [after1_7, out_eq]
  have ht : t.val < 50 := lt_of_lt_of_eq t.isLt N_1
  obtain ⟨-, -, -, -, -, -, -, -, -, -, -, -, e70, e71⟩ := idx_facts t
  funext j
  obtain ⟨p, q, rfl⟩ : ∃ (p : Fin 2000) (q : Fin 256), j = ix2 p q := ⟨j 0, j 1, eq_ix2 j⟩
  have hp : p.val < 2000 := p.isLt
  have he : ((cfg1.win 7).blk t).view.emb (ix2 p q) = (ix2 (⟨t.val * 2000 + p.val, by omega⟩ : Fin 100000) q : S100000x256.Idx) := by
    funext a; apply Fin.ext
    match a with
    | ⟨0, _⟩ => show win1_7.index t (0 : Fin 2) * 2000 + 1 * p.val = t.val * 2000 + p.val; omega
    | ⟨1, _⟩ => show win1_7.index t (1 : Fin 2) * 256 + 1 * q.val = q.val; omega
  show Cert.Sage.stageRect (iblk1 V c 0 t) (iblk1 V c 1 t) (iblk1 V c 2 t) (iblk1 V c 3 t) (iblk1 V c 4 t)
      (iblk1 V c 5 t) (iblk1 V c 6 t) (ix2 p q)
    = (Cert.Sage.stageRect (V c main_v46) (V c main_arg1) (V c main_arg7) (V c main_arg8) (V c main_arg9) (V c main_arg15) (V c main_arg16))
      (((cfg1.win 7).blk t).view.emb (ix2 p q))
  rw [he, blk2 V c t, blk3 V c t, blk4 V c t, blk5 V c t, blk6 V c t]
  exact Cert.Sage.stageRect_row _ _ _ _ _ _ _ _ _ p ⟨t.val * 2000 + p.val, by omega⟩
    (fun l => blk0_row V c t p _ rfl l) (fun l => blk1_row V c t p _ rfl l) q

/-- An index of the result array is in point `t`'s block iff each coordinate is in the block's range. -/
theorem mem_blk (t : Fin cfg1.N) (i : S100000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v47).slice (win1_7.rect t)).set ↔ _
  rw [View.set_slice_whole, Rect.mem_set_unit]
  exact Iff.rfl

/-- The result array after the region: the stage function of the arrays as the region finds them.  Row `r` is in the
    block of point `r / 2000`. -/
theorem final (c : Dev nD) :
    (dat1 V c).arrAt 7 cfg1.N
      = Cert.Sage.stageRect (V c main_v46) (V c main_arg1) (V c main_arg7) (V c main_arg8) (V c main_arg9) (V c main_arg15) (V c main_arg16) :=
  (dat1 V c).arrAt_eq_of_cover 7 _ (fun t _ => flushed_eq V c t) fun i => by
    have hi0 : (i 0).val < 100000 := (i 0).isLt
    have hi1 : (i 1).val < 256 := (i 1).isLt
    have hN : cfg1.N = 50 := N_1
    refine ⟨⟨(i 0).val / 2000, by rw [hN]; omega⟩, flush1_7 _, ?_⟩
    obtain ⟨-, -, -, -, -, -, -, -, -, -, -, -, e70, e71⟩ := idx_facts ⟨(i 0).val / 2000, by rw [hN]; omega⟩
    rw [mem_blk]
    intro a
    match a with
    | ⟨0, _⟩ =>
      show win1_7.index _ (0 : Fin 2) * 2000 ≤ (i 0).val ∧ (i 0).val < win1_7.index _ (0 : Fin 2) * 2000 + 2000
      rw [e70]; show (i 0).val / 2000 * 2000 ≤ (i 0).val ∧ (i 0).val < (i 0).val / 2000 * 2000 + 2000; omega
    | ⟨1, _⟩ =>
      show win1_7.index _ (1 : Fin 2) * 256 ≤ (i 1).val ∧ (i 1).val < win1_7.index _ (1 : Fin 2) * 256 + 256
      rw [e71]; omega

end Cert.KernelIdeal.Rows1

end
-- ==== Proof.Rows2.lean ====
import proofs.«111290_j48816598286984_1_alg».proof.Proof.Gen.KernelIdeal.Frame
import proofs.«111290_j48816598286984_1_alg».proof.Proof.LibSageSpellings
import Idealize.ShloMosaic.Lib.Pipeline.Value

/-!
# Region 2: the blocks of rows put together

The region's grid has 50 points; point `t` reads rows `2000·t … 2000·t + 1999` of the two feature matrices and the
whole of the weights and biases, and writes the same rows of the result.  One block of the result is therefore the
stage function of the region's whole arrays, restricted to the block's rows (a row of the stage needs that row of
the feature matrices only), and the 50 blocks tile the result: the result array is the stage function of the arrays
as the region finds them.
-/

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Rows2

open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's arithmetic is the stage function of the blocks it loads. -/
theorem pay_eq (v0 v3 : Vec Ideal S2000x256 .f32) (v5 v7 : Vec Ideal S256x256 .f32) (v9 : Vec Ideal S256 .f32)
    (v18 : Vec Ideal S256x64 .f32) (v20 : Vec Ideal S64 .f32) :
    k2_pay1 v0 v3 v5 v7 v9 v18 v20 = Cert.Sage.stage v0 v3 v5 v9 v7 v18 v20 := by
  unfold k2_pay1
  simp only [shapeCast_self]
  exact Cert.Sage.kernel_stage _ _ _ _ _ _ _ _ v0 v3 v5 v7 v9 v18 v20

/-- What the body leaves in the output block, as the stage function of the seven input blocks. -/
theorem out_eq (x0 x1 : Vec Ideal S2000x256 .f32) (x2 : Vec Ideal S256x256 .f32) (x3 : Vec Ideal S256 .f32)
    (x4 : Vec Ideal S256x256 .f32) (x5 : Vec Ideal S256x64 .f32) (x6 : Vec Ideal S64 .f32) :
    out2_7 x0 x1 x2 x3 x4 x5 x6 = Cert.Sage.stage x0 x1 x2 x3 x4 x5 x6 := by
  unfold out2_7
  rw [View.canon_unit_zero hz2]
  simp only [View.ld_unit_zero (S := S2000x256) hz2, View.ld_unit_zero (S := S256x256) hz2, View.ld_unit_zero (S := S256x64) hz2, View.ld_unit_zero (S := S256) hz1, View.ld_unit_zero (S := S64) hz1]
  exact pay_eq _ _ _ _ _ _ _

/-- The index maps over the grid: the two feature windows and the result window move down the rows with the point,
    the weights' and biases' windows stay on their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 1) = 0
    ∧ win2_7.index t (0 : Fin 2) = t.val ∧ win2_7.index t (1 : Fin 2) = 0 :=
  (by decide +kernel : ∀ t : Fin grid2.N, _)

/-! ## The windows that hold a whole array -/

theorem blk2 (c : Dev nD) (t : Fin cfg2.N) : (iblk2 V c 2 t : S256x256.Idx → EReal) = (V c main_arg10 : S256x256.Idx → EReal) := by
  obtain ⟨-, -, -, -, e20, e21, -⟩ := idx_facts t
  funext y
  show (V c main_arg10 : S256x256.Idx → EReal) (((cfg2.win 2).blk t).view.emb y) = _
  refine congrArg _ (funext fun a => Fin.ext ?_)
  match a with
  | ⟨0, _⟩ => show win2_2.index t (0 : Fin 2) * 256 + 1 * (y 0).val = (y 0).val; omega
  | ⟨1, _⟩ => show win2_2.index t (1 : Fin 2) * 256 + 1 * (y 1).val = (y 1).val; omega

theorem blk3 (c : Dev nD) (t : Fin cfg2.N) : (iblk2 V c 3 t : S256.Idx → EReal) = (V c main_arg11 : S256.Idx → EReal) := by
  obtain ⟨-, -, -, -, -, -, e30, -⟩ := idx_facts t
  funext y
  show (V c main_arg11 : S256.Idx → EReal) (((cfg2.win 3).blk t).view.emb y) = _
  refine congrArg _ (funext fun a => Fin.ext ?_)
  match a with
  | ⟨0, _⟩ => show win2_3.index t (0 : Fin 1) * 256 + 1 * (y 0).val = (y 0).val; omega

theorem blk4 (c : Dev nD) (t : Fin cfg2.N) : (iblk2 V c 4 t : S256x256.Idx → EReal) = (V c main_arg12 : S256x256.Idx → EReal) := by
  obtain ⟨-, -, -, -, -, -, -, e40, e41, -⟩ := idx_facts t
  funext y
  show (V c main_arg12 : S256x256.Idx → EReal) (((cfg2.win 4).blk t).view.emb y) = _
  refine congrArg _ (funext fun a => Fin.ext ?_)
  match a with
  | ⟨0, _⟩ => show win2_4.index t (0 : Fin 2) * 256 + 1 * (y 0).val = (y 0).val; omega
  | ⟨1, _⟩ => show win2_4.index t (1 : Fin 2) * 256 + 1 * (y 1).val = (y 1).val; omega

theorem blk5 (c : Dev nD) (t : Fin cfg2.N) : (iblk2 V c 5 t : S256x64.Idx → EReal) = (V c main_arg17 : S256x64.Idx → EReal) := by
  obtain ⟨-, -, -, -, -, -, -, -, -, e50, e51, -⟩ := idx_facts t
  funext y
  show (V c main_arg17 : S256x64.Idx → EReal) (((cfg2.win 5).blk t).view.emb y) = _
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 64 + 1 * (y 1).val = (y 1).val; omega

theorem blk6 (c : Dev nD) (t : Fin cfg2.N) : (iblk2 V c 6 t : S64.Idx → EReal) = (V c main_arg18 : S64.Idx → EReal) := by
  obtain ⟨-, -, -, -, -, -, -, -, -, -, -, e60, -⟩ := idx_facts t
  funext y
  show (V c main_arg18 : S64.Idx → EReal) (((cfg2.win 6).blk t).view.emb y) = _
  refine congrArg _ (funext fun a => Fin.ext ?_)
  match a with
  | ⟨0, _⟩ => show win2_6.index t (0 : Fin 1) * 64 + 1 * (y 0).val = (y 0).val; omega

/-! ## The windows that hold a block of rows -/

/-- Row `p` of point `t`'s block of the aggregated features is row `2000·t + p` of the array. -/
theorem blk0_row (c : Dev nD) (t : Fin cfg2.N) (p : Fin 2000) (r : Fin 100000) (hr : r.val = t.val * 2000 + p.val)
    (l : Fin 256) :
    (iblk2 V c 0 t : S2000x256.Idx → EReal) (ix2 p l) = (V c main_v70 : S100000x256.Idx → EReal) (ix2 r l) := by
  obtain ⟨e00, e01, -⟩ := idx_facts t
  show (V c main_v70 : S100000x256.Idx → EReal) (((cfg2.win 0).blk t).view.emb (ix2 p l)) = _
  refine congrArg _ (funext fun a => Fin.ext ?_)
  match a with
  | ⟨0, _⟩ => show win2_0.index t (0 : Fin 2) * 2000 + 1 * p.val = r.val; omega
  | ⟨1, _⟩ => show win2_0.index t (1 : Fin 2) * 256 + 1 * l.val = l.val; omega

/-- The same for the destination nodes' own features. -/
theorem blk1_row (c : Dev nD) (t : Fin cfg2.N) (p : Fin 2000) (r : Fin 100000) (hr : r.val = t.val * 2000 + p.val)
    (l : Fin 256) :
    (iblk2 V c 1 t : S2000x256.Idx → EReal) (ix2 p l) = (V c main_v47 : S100000x256.Idx → EReal) (ix2 r l) := by
  obtain ⟨-, -, e10, e11, -⟩ := idx_facts t
  show (V c main_v47 : S100000x256.Idx → EReal) (((cfg2.win 1).blk t).view.emb (ix2 p l)) = _
  refine congrArg _ (funext fun a => Fin.ext ?_)
  match a with
  | ⟨0, _⟩ => show win2_1.index t (0 : Fin 2) * 2000 + 1 * p.val = r.val; omega
  | ⟨1, _⟩ => show win2_1.index t (1 : Fin 2) * 256 + 1 * l.val = l.val; omega

/-! ## One write-back, and all of them -/

/-- What point `t` writes back is block `t` of the stage function of the region's arrays. -/
theorem flushed_eq (c : Dev nD) (t : Fin cfg2.N) :
    (dat2 V c).flushed 7 t = ((cfg2.win 7).blk t).view.read (Elt Ideal)
      (Cert.Sage.stage (V c main_v70) (V c main_v47) (V c main_arg10) (V c main_arg11) (V c main_arg12) (V c main_arg17) (V c main_arg18)) := by
  show (cfg2.win 7).cut (grid2.coords t) ((dat2 V c).after 7 t) = _
  rw [after2_7, out_eq]
  have ht : t.val < 50 := lt_of_lt_of_eq t.isLt N_2
  obtain ⟨-, -, -, -, -, -, -, -, -, -, -, -, e70, e71⟩ := idx_facts t
  funext j
  obtain ⟨p, q, rfl⟩ : ∃ (p : Fin 2000) (q : Fin 64), j = ix2 p q := ⟨j 0, j 1, eq_ix2 j⟩
  have hp : p.val < 2000 := p.isLt
  have he : ((cfg2.win 7).blk t).view.emb (ix2 p q) = (ix2 (⟨t.val * 2000 + p.val, by omega⟩ : Fin 100000) q : S100000x64.Idx) := by
    funext a; apply Fin.ext
    match a with
    | ⟨0, _⟩ => show win2_7.index t (0 : Fin 2) * 2000 + 1 * p.val = t.val * 2000 + p.val; omega
    | ⟨1, _⟩ => show win2_7.index t (1 : Fin 2) * 64 + 1 * q.val = q.val; omega
  show Cert.Sage.stage (iblk2 V c 0 t) (iblk2 V c 1 t) (iblk2 V c 2 t) (iblk2 V c 3 t) (iblk2 V c 4 t)
      (iblk2 V c 5 t) (iblk2 V c 6 t) (ix2 p q)
    = (Cert.Sage.stage (V c main_v70) (V c main_v47) (V c main_arg10) (V c main_arg11) (V c main_arg12) (V c main_arg17) (V c main_arg18))
      (((cfg2.win 7).blk t).view.emb (ix2 p q))
  rw [he, blk2 V c t, blk3 V c t, blk4 V c t, blk5 V c t, blk6 V c t]
  exact Cert.Sage.stage_row _ _ _ _ _ _ _ _ _ p ⟨t.val * 2000 + p.val, by omega⟩
    (fun l => blk0_row V c t p _ rfl l) (fun l => blk1_row V c t p _ rfl l) q

/-- An index of the result array is in point `t`'s block iff each coordinate is in the block's range. -/
theorem mem_blk (t : Fin cfg2.N) (i : S100000x64.Idx) :
    i ∈ ((cfg2.win 7).blk t).view.set ↔ ∀ a : Fin 2, win2_7.index t a * S2000x64.size a ≤ (i a).val
      ∧ (i a).val < win2_7.index t a * S2000x64.size a + S2000x64.size a := by
  show i ∈ ((View.whole main_v71).slice (win2_7.rect t)).set ↔ _
  rw [View.set_slice_whole, Rect.mem_set_unit]
  exact Iff.rfl

/-- The result array after the region: the stage function of the arrays as the region finds them.  Row `r` is in the
    block of point `r / 2000`. -/
theorem final (c : Dev nD) :
    (dat2 V c).arrAt 7 cfg2.N
      = Cert.Sage.stage (V c main_v70) (V c main_v47) (V c main_arg10) (V c main_arg11) (V c main_arg12) (V c main_arg17) (V c main_arg18) :=
  (dat2 V c).arrAt_eq_of_cover 7 _ (fun t _ => flushed_eq V c t) fun i => by
    have hi0 : (i 0).val < 100000 := (i 0).isLt
    have hi1 : (i 1).val < 64 := (i 1).isLt
    have hN : cfg2.N = 50 := N_2
    refine ⟨⟨(i 0).val / 2000, by rw [hN]; omega⟩, flush2_7 _, ?_⟩
    obtain ⟨-, -, -, -, -, -, -, -, -, -, -, -, e70, e71⟩ := idx_facts ⟨(i 0).val / 2000, by rw [hN]; omega⟩
    rw [mem_blk]
    intro a
    match a with
    | ⟨0, _⟩ =>
      show win2_7.index _ (0 : Fin 2) * 2000 ≤ (i 0).val ∧ (i 0).val < win2_7.index _ (0 : Fin 2) * 2000 + 2000
      rw [e70]; show (i 0).val / 2000 * 2000 ≤ (i 0).val ∧ (i 0).val < (i 0).val / 2000 * 2000 + 2000; omega
    | ⟨1, _⟩ =>
      show win2_7.index _ (1 : Fin 2) * 64 ≤ (i 1).val ∧ (i 1).val < win2_7.index _ (1 : Fin 2) * 64 + 64
      rw [e71]; omega

end Cert.KernelIdeal.Rows2

end
-- ==== Proof.Ref.lean ====
import proofs.«111290_j48816598286984_1_alg».proof.Proof.Gen.ReferenceIdeal.Run
import proofs.«111290_j48816598286984_1_alg».proof.Proof.LibSageSpellings

/-!
# The whole-array program, stage by stage

The whole-array program computes, three times, a mean over incoming edges followed by a stage of the network.
Its result, as one composed term of the argument arrays, is cut here into named pieces: the three edge means
(`edgeMean1/2/3`: the source rows gathered along the edges, summed into their destination rows, and divided by the
number of incoming edges or by one if there are none — as whole-array terms of the features and the edge list, never
opened) and the three stages (`dense1/2/3`), each of which is the stage function `Cert.Sage.stageRect` / `stage`.
-/

set_option maxRecDepth 16384

noncomputable section

namespace Cert.Sage.Ref

open Cert.ReferenceIdeal Cert.ReferenceIdeal.Gen Idealize.ShloMosaic Idealize.ShloMosaic.TcCoe Idealize.SL.Sem

/-! ## The edge means -/

/-- Stage 1: movie features averaged over the similarity edges, into movies. -/
def edgeMean1 (x : FVec Ideal S50000x128 .f32) (e : IVec S2x600000 32) : FVec Ideal S50000x128 .f32 :=
  (Host.divf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] e slices_S2x600000_S1x600000_1_0) shapeCasts_S1x600000_S600000)) (Host.gather gather_S50000x128_S600000x1_S600000x128_1_0_n_n_0_1_1128 x (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000))))) (broadcastInDim S50000x128 ![0, 1] bcast_S50000x1_S50000x128_0_1 (broadcastInDim S50000x1 ![0] bcast_S50000_S50000x1_0 (maximumf (Host.scatterAdd scatter_S50000_S600000x1_S600000_n_0_0_1 (broadcastInDim S50000 ![] bcast_S_S50000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S50000 ![] bcast_S_S50000 (constant S_ .f32 0x3F800000#32))))))

/-- Stage 2: movie features averaged over the rating edges, into users. -/
def edgeMean2 (x : FVec Ideal S50000x128 .f32) (e : IVec S2x600000 32) : FVec Ideal S100000x128 .f32 :=
  (Host.divf (Host.scatterAdd scatter_S100000x128_S600000x1_S600000x128_1_0_0_1 (broadcastInDim S100000x128 ![] bcast_S_S100000x128 (constant S_ .f32 0x00000000#32)) (broadcastInDim S600000x1 ![0] bcast_S600000_S600000x1_0 (shapeCast _ (extractStridedSlice S1x600000 ![1, 0] e slices_S2x600000_S1x600000_1_0) shapeCasts_S1x600000_S600000)) (Host.gather gather_S50000x128_S600000x1_S600000x128_1_0_n_n_0_1_1128 x (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000))))) (broadcastInDim S100000x128 ![0, 1] bcast_S100000x1_S100000x128_0_1 (broadcastInDim S100000x1 ![0] bcast_S100000_S100000x1_0 (maximumf (Host.scatterAdd scatter_S100000_S600000x1_S600000_n_0_0_1 (broadcastInDim S100000 ![] bcast_S_S100000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S100000 ![] bcast_S_S100000 (constant S_ .f32 0x3F800000#32))))))

/-- Stage 3: the first stage's movie embeddings averaged over the rating edges, into users. -/
def edgeMean3 (hh : FVec Ideal S50000x256 .f32) (e : IVec S2x600000 32) : FVec Ideal S100000x256 .f32 :=
  (Host.divf (Host.scatterAdd scatter_S100000x256_S600000x1_S600000x256_1_0_0_1 (broadcastInDim S100000x256 ![] bcast_S_S100000x256 (constant S_ .f32 0x00000000#32)) (broadcastInDim S600000x1 ![0] bcast_S600000_S600000x1_0 (shapeCast _ (extractStridedSlice S1x600000 ![1, 0] e slices_S2x600000_S1x600000_1_0) shapeCasts_S1x600000_S600000)) (Host.gather gather_S50000x256_S600000x1_S600000x256_1_0_n_n_0_1_1256 hh (broadcastInDim S600000x1 ![0] bcast_S600000_S600000x1_0 (select (cmpi .slt (shapeCast _ (extractStridedSlice S1x600000 ![0, 0] e slices_S2x600000_S1x600000_0_0) shapeCasts_S1x600000_S600000) (broadcastInDim S600000 ![] bcast_S_S600000 (constantI S_ 32 0#32))) (addi (shapeCast _ (extractStridedSlice S1x600000 ![0, 0] e slices_S2x600000_S1x600000_0_0) shapeCasts_S1x600000_S600000) (broadcastInDim S600000 ![] bcast_S_S600000 (constantI S_ 32 50000#32))) (shapeCast _ (extractStridedSlice S1x600000 ![0, 0] e slices_S2x600000_S1x600000_0_0) shapeCasts_S1x600000_S600000))))) (broadcastInDim S100000x256 ![0, 1] bcast_S100000x1_S100000x256_0_1 (broadcastInDim S100000x1 ![0] bcast_S100000_S100000x1_0 (maximumf (Host.scatterAdd scatter_S100000_S600000x1_S600000_n_0_0_1 (broadcastInDim S100000 ![] bcast_S_S100000 (constant S_ .f32 0x00000000#32)) (broadcastInDim S600000x1 ![0] bcast_S600000_S600000x1_0 (shapeCast _ (extractStridedSlice S1x600000 ![1, 0] e slices_S2x600000_S1x600000_1_0) shapeCasts_S1x600000_S600000)) (broadcastInDim S600000 ![] bcast_S_S600000 (constant S_ .f32 0x3F800000#32))) (broadcastInDim S100000 ![] bcast_S_S100000 (constant S_ .f32 0x3F800000#32))))))

/-! ## The stages, in the program's own operations -/

def dense1 (mean x : FVec Ideal S50000x128 .f32) (wl : FVec Ideal S128x256 .f32) (bl : FVec Ideal S256 .f32) (wr : FVec Ideal S128x256 .f32)
    (w : FVec Ideal S256x256 .f32) (b : FVec Ideal S256 .f32) : FVec Ideal S50000x256 .f32 :=
  (maximumf (addf (Host.dotGeneral dot_S50000x256_S256x256_S50000x256_1_0_0_1_n_n none (maximumf (addf (addf (Host.dotGeneral dot_S50000x128_S128x256_S50000x256_1_0_0_1_n_n none mean wl) (broadcastInDim S50000x256 ![0, 1] bcast_S1x256_S50000x256_0_1 (broadcastInDim S1x256 ![1] bcast_S256_S1x256_1 bl))) (Host.dotGeneral dot_S50000x128_S128x256_S50000x256_1_0_0_1_n_n none x wr)) (broadcastInDim S50000x256 ![] bcast_S_S50000x256 (constant S_ .f32 0x00000000#32))) w) (broadcastInDim S50000x256 ![0, 1] bcast_S1x256_S50000x256_0_1 (broadcastInDim S1x256 ![1] bcast_S256_S1x256_1 b))) (broadcastInDim S50000x256 ![] bcast_S_S50000x256 (constant S_ .f32 0x00000000#32)))

def dense2 (mean x : FVec Ideal S100000x128 .f32) (wl : FVec Ideal S128x256 .f32) (bl : FVec Ideal S256 .f32) (wr : FVec Ideal S128x256 .f32)
    (w : FVec Ideal S256x256 .f32) (b : FVec Ideal S256 .f32) : FVec Ideal S100000x256 .f32 :=
  (maximumf (addf (Host.dotGeneral dot_S100000x256_S256x256_S100000x256_1_0_0_1_n_n none (maximumf (addf (addf (Host.dotGeneral dot_S100000x128_S128x256_S100000x256_1_0_0_1_n_n none mean wl) (broadcastInDim S100000x256 ![0, 1] bcast_S1x256_S100000x256_0_1 (broadcastInDim S1x256 ![1] bcast_S256_S1x256_1 bl))) (Host.dotGeneral dot_S100000x128_S128x256_S100000x256_1_0_0_1_n_n none x wr)) (broadcastInDim S100000x256 ![] bcast_S_S100000x256 (constant S_ .f32 0x00000000#32))) w) (broadcastInDim S100000x256 ![0, 1] bcast_S1x256_S100000x256_0_1 (broadcastInDim S1x256 ![1] bcast_S256_S1x256_1 b))) (broadcastInDim S100000x256 ![] bcast_S_S100000x256 (constant S_ .f32 0x00000000#32)))

def dense3 (mean x : FVec Ideal S100000x256 .f32) (wl : FVec Ideal S256x256 .f32) (bl : FVec Ideal S256 .f32) (wr : FVec Ideal S256x256 .f32)
    (w : FVec Ideal S256x64 .f32) (b : FVec Ideal S64 .f32) : FVec Ideal S100000x64 .f32 :=
  addf (Host.dotGeneral dot_S100000x256_S256x64_S100000x64_1_0_0_1_n_n none (maximumf (addf (addf (Host.dotGeneral dot_S100000x256_S256x256_S100000x256_1_0_0_1_n_n none mean wl) (broadcastInDim S100000x256 ![0, 1] bcast_S1x256_S100000x256_0_1 (broadcastInDim S1x256 ![1] bcast_S256_S1x256_1 bl))) (Host.dotGeneral dot_S100000x256_S256x256_S100000x256_1_0_0_1_n_n none x wr)) (broadcastInDim S100000x256 ![] bcast_S_S100000x256 (constant S_ .f32 0x00000000#32))) w) (broadcastInDim S100000x64 ![0, 1] bcast_S1x64_S100000x64_0_1 (broadcastInDim S1x64 ![1] bcast_S64_S1x64_1 b))

/-- The program's result is the three stages composed: the third over the edge mean of the first and over the second. -/
theorem result_eq (m : (ℓ : Loc nD τ sig) → Buf (Elt Ideal) ℓ) (c : Dev nD) :
    Cert.ReferenceIdeal.Value.res_main_v103 m c
      = dense3
          (edgeMean3
            (dense1 (edgeMean1 (m ((c.tc : Thread nD τ).loc main_arg0)) (m ((c.tc : Thread nD τ).loc main_arg2)))
              (m ((c.tc : Thread nD τ).loc main_arg0)) (m ((c.tc : Thread nD τ).loc main_arg4))
              (m ((c.tc : Thread nD τ).loc main_arg5)) (m ((c.tc : Thread nD τ).loc main_arg6))
              (m ((c.tc : Thread nD τ).loc main_arg13)) (m ((c.tc : Thread nD τ).loc main_arg14)))
            (m ((c.tc : Thread nD τ).loc main_arg3)))
          (dense2 (edgeMean2 (m ((c.tc : Thread nD τ).loc main_arg0)) (m ((c.tc : Thread nD τ).loc main_arg3)))
            (m ((c.tc : Thread nD τ).loc main_arg1)) (m ((c.tc : Thread nD τ).loc main_arg7))
            (m ((c.tc : Thread nD τ).loc main_arg8)) (m ((c.tc : Thread nD τ).loc main_arg9))
            (m ((c.tc : Thread nD τ).loc main_arg15)) (m ((c.tc : Thread nD τ).loc main_arg16)))
          (m ((c.tc : Thread nD τ).loc main_arg10)) (m ((c.tc : Thread nD τ).loc main_arg11))
          (m ((c.tc : Thread nD τ).loc main_arg12)) (m ((c.tc : Thread nD τ).loc main_arg17))
          (m ((c.tc : Thread nD τ).loc main_arg18)) := by
  unfold Cert.ReferenceIdeal.Value.res_main_v103 dense3 dense2 dense1 edgeMean3 edgeMean2 edgeMean1
  rfl

/-! ## Each stage is the stage function -/

theorem dense1_eq (mean x : FVec Ideal S50000x128 .f32) (wl : FVec Ideal S128x256 .f32) (bl : FVec Ideal S256 .f32) (wr : FVec Ideal S128x256 .f32)
    (w : FVec Ideal S256x256 .f32) (b : FVec Ideal S256 .f32) :
    dense1 mean x wl bl wr w b = Cert.Sage.stageRect mean x wl bl wr w b := by
  unfold dense1
  exact Cert.Sage.host_stageRect _ _ _ _ _ _ _ _ _ mean x wl wr bl w b

theorem dense2_eq (mean x : FVec Ideal S100000x128 .f32) (wl : FVec Ideal S128x256 .f32) (bl : FVec Ideal S256 .f32) (wr : FVec Ideal S128x256 .f32)
    (w : FVec Ideal S256x256 .f32) (b : FVec Ideal S256 .f32) :
    dense2 mean x wl bl wr w b = Cert.Sage.stageRect mean x wl bl wr w b := by
  unfold dense2
  exact Cert.Sage.host_stageRect _ _ _ _ _ _ _ _ _ mean x wl wr bl w b

theorem dense3_eq (mean x : FVec Ideal S100000x256 .f32) (wl : FVec Ideal S256x256 .f32) (bl : FVec Ideal S256 .f32) (wr : FVec Ideal S256x256 .f32)
    (w : FVec Ideal S256x64 .f32) (b : FVec Ideal S64 .f32) :
    dense3 mean x wl bl wr w b = Cert.Sage.stage mean x wl bl wr w b := by
  unfold dense3
  exact Cert.Sage.host_stage _ _ _ _ _ _ _ _ mean x wl wr bl w b

end Cert.Sage.Ref

end
-- ==== Proof.KFold.lean ====
import proofs.«111290_j48816598286984_1_alg».proof.Proof.Gen.KernelIdeal.Frame
import proofs.«111290_j48816598286984_1_alg».proof.Proof.Rows0
import proofs.«111290_j48816598286984_1_alg».proof.Proof.Rows1
import proofs.«111290_j48816598286984_1_alg».proof.Proof.Rows2
import proofs.«111290_j48816598286984_1_alg».proof.Proof.Ref

/-!
# What each region finds, and what the last one leaves

The blockwise program's buffers are followed from the launch through its three stretches of whole-array operations and
its three regions.  A stretch leaves every buffer it does not write as it was and its edge mean at the composed term of
the features and the edge list it read; a region leaves its result at the stage function of the arrays it found
(`Rows0/1/2.final`) and every other buffer as it was.  So the result array ends at the third stage of the edge mean of
the first stage's result and of the second stage's result — the same composition of the same functions as the
whole-array program's.
-/

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Buffers a stretch or a region leaves alone -/

theorem W1_arg0 (c : Dev nD) : W1 m ρ c (Proc.devRef .tc main_arg0) = (m ((c : Thread nD τ).loc main_arg0)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg0) = W0 m ρ c (Proc.devRef .tc main_arg0))

theorem W1_arg1 (c : Dev nD) : W1 m ρ c (Proc.devRef .tc main_arg1) = (m ((c : Thread nD τ).loc main_arg1)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg1) = W0 m ρ c (Proc.devRef .tc main_arg1))

theorem W1_arg3 (c : Dev nD) : W1 m ρ c (Proc.devRef .tc main_arg3) = (m ((c : Thread nD τ).loc main_arg3)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg3) = W0 m ρ c (Proc.devRef .tc main_arg3))

theorem W1_arg4 (c : Dev nD) : W1 m ρ c (Proc.devRef .tc main_arg4) = (m ((c : Thread nD τ).loc main_arg4)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg4) = W0 m ρ c (Proc.devRef .tc main_arg4))

theorem W1_arg5 (c : Dev nD) : W1 m ρ c (Proc.devRef .tc main_arg5) = (m ((c : Thread nD τ).loc main_arg5)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg5) = W0 m ρ c (Proc.devRef .tc main_arg5))

theorem W1_arg6 (c : Dev nD) : W1 m ρ c (Proc.devRef .tc main_arg6) = (m ((c : Thread nD τ).loc main_arg6)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg6) = W0 m ρ c (Proc.devRef .tc main_arg6))

theorem W1_arg7 (c : Dev nD) : W1 m ρ c (Proc.devRef .tc main_arg7) = (m ((c : Thread nD τ).loc main_arg7)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg7) = W0 m ρ c (Proc.devRef .tc main_arg7))

theorem W1_arg8 (c : Dev nD) : W1 m ρ c (Proc.devRef .tc main_arg8) = (m ((c : Thread nD τ).loc main_arg8)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg8) = W0 m ρ c (Proc.devRef .tc main_arg8))

theorem W1_arg9 (c : Dev nD) : W1 m ρ c (Proc.devRef .tc main_arg9) = (m ((c : Thread nD τ).loc main_arg9)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg9) = W0 m ρ c (Proc.devRef .tc main_arg9))

theorem W1_arg10 (c : Dev nD) : W1 m ρ c (Proc.devRef .tc main_arg10) = (m ((c : Thread nD τ).loc main_arg10)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg10) = W0 m ρ c (Proc.devRef .tc main_arg10))

theorem W1_arg11 (c : Dev nD) : W1 m ρ c (Proc.devRef .tc main_arg11) = (m ((c : Thread nD τ).loc main_arg11)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg11) = W0 m ρ c (Proc.devRef .tc main_arg11))

theorem W1_arg12 (c : Dev nD) : W1 m ρ c (Proc.devRef .tc main_arg12) = (m ((c : Thread nD τ).loc main_arg12)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg12) = W0 m ρ c (Proc.devRef .tc main_arg12))

theorem W1_arg13 (c : Dev nD) : W1 m ρ c (Proc.devRef .tc main_arg13) = (m ((c : Thread nD τ).loc main_arg13)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg13) = W0 m ρ c (Proc.devRef .tc main_arg13))

theorem W1_arg14 (c : Dev nD) : W1 m ρ c (Proc.devRef .tc main_arg14) = (m ((c : Thread nD τ).loc main_arg14)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg14) = W0 m ρ c (Proc.devRef .tc main_arg14))

theorem W1_arg15 (c : Dev nD) : W1 m ρ c (Proc.devRef .tc main_arg15) = (m ((c : Thread nD τ).loc main_arg15)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg15) = W0 m ρ c (Proc.devRef .tc main_arg15))

theorem W1_arg16 (c : Dev nD) : W1 m ρ c (Proc.devRef .tc main_arg16) = (m ((c : Thread nD τ).loc main_arg16)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg16) = W0 m ρ c (Proc.devRef .tc main_arg16))

theorem W1_arg17 (c : Dev nD) : W1 m ρ c (Proc.devRef .tc main_arg17) = (m ((c : Thread nD τ).loc main_arg17)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg17) = W0 m ρ c (Proc.devRef .tc main_arg17))

theorem W1_arg18 (c : Dev nD) : W1 m ρ c (Proc.devRef .tc main_arg18) = (m ((c : Thread nD τ).loc main_arg18)) :=
  (StableHlo.after_of_forall_not_mem _ _ (List.forall_iff_forall_mem.mp (by
      simp only [hostOps0, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps0 (W0 m ρ c) (Proc.devRef .tc main_arg18) = W0 m ρ c (Proc.devRef .tc main_arg18))

theorem W2_arg1 (c : Dev nD) : W2 m ρ c (Proc.devRef .tc main_arg1) = (m ((c : Thread nD τ).loc main_arg1)) :=
  (W2_of_ne m ρ c main_arg1 (by decide)).trans (W1_arg1 m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

theorem W2_arg9 (c : Dev nD) : W2 m ρ c (Proc.devRef .tc main_arg9) = (m ((c : Thread nD τ).loc main_arg9)) :=
  (W2_of_ne m ρ c main_arg9 (by decide)).trans (W1_arg9 m ρ c)

theorem W2_arg10 (c : Dev nD) : W2 m ρ c (Proc.devRef .tc main_arg10) = (m ((c : Thread nD τ).loc main_arg10)) :=
  (W2_of_ne m ρ c main_arg10 (by decide)).trans (W1_arg10 m ρ c)

theorem W2_arg11 (c : Dev nD) : W2 m ρ c (Proc.devRef .tc main_arg11) = (m ((c : Thread nD τ).loc main_arg11)) :=
  (W2_of_ne m ρ c main_arg11 (by decide)).trans (W1_arg11 m ρ c)

theorem W2_arg12 (c : Dev nD) : W2 m ρ c (Proc.devRef .tc main_arg12) = (m ((c : Thread nD τ).loc main_arg12)) :=
  (W2_of_ne m ρ c main_arg12 (by decide)).trans (W1_arg12 m ρ c)

theorem W2_arg15 (c : Dev nD) : W2 m ρ c (Proc.devRef .tc main_arg15) = (m ((c : Thread nD τ).loc main_arg15)) :=
  (W2_of_ne m ρ c main_arg15 (by decide)).trans (W1_arg15 m ρ c)

theorem W2_arg16 (c : Dev nD) : W2 m ρ c (Proc.devRef .tc main_arg16) = (m ((c : Thread nD τ).loc main_arg16)) :=
  (W2_of_ne m ρ c main_arg16 (by decide)).trans (W1_arg16 m ρ c)

theorem W2_arg17 (c : Dev nD) : W2 m ρ c (Proc.devRef .tc main_arg17) = (m ((c : Thread nD τ).loc main_arg17)) :=
  (W2_of_ne m ρ c main_arg17 (by decide)).trans (W1_arg17 m ρ c)

theorem W2_arg18 (c : Dev nD) : W2 m ρ c (Proc.devRef .tc main_arg18) = (m ((c : Thread nD τ).loc main_arg18)) :=
  (W2_of_ne m ρ c main_arg18 (by decide)).trans (W1_arg18 m ρ c)

/-- The movies' features pass through the first region, which only reads them. -/
theorem W2_arg0 (c : Dev nD) : W2 m ρ c (Proc.devRef .tc main_arg0) = (m ((c : Thread nD τ).loc main_arg0)) :=
  ((W2_arr m ρ c 1).trans (((dat0 (V1 m ρ) c).arrAt_in 1 rfl _).trans (A_eq0 (V1 m ρ) c 1))).trans (W1_arg0 m ρ c)

theorem W3_arg1 (c : Dev nD) : W3 m ρ c (Proc.devRef .tc main_arg1) = (m ((c : Thread nD τ).loc main_arg1)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg1) = W2 m ρ c (Proc.devRef .tc main_arg1)).trans (W2_arg1 m ρ c)

theorem W3_arg7 (c : Dev nD) : W3 m ρ c (Proc.devRef .tc main_arg7) = (m ((c : Thread nD τ).loc main_arg7)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg7) = W2 m ρ c (Proc.devRef .tc main_arg7)).trans (W2_arg7 m ρ c)

theorem W3_arg8 (c : Dev nD) : W3 m ρ c (Proc.devRef .tc main_arg8) = (m ((c : Thread nD τ).loc main_arg8)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg8) = W2 m ρ c (Proc.devRef .tc main_arg8)).trans (W2_arg8 m ρ c)

theorem W3_arg9 (c : Dev nD) : W3 m ρ c (Proc.devRef .tc main_arg9) = (m ((c : Thread nD τ).loc main_arg9)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg9) = W2 m ρ c (Proc.devRef .tc main_arg9)).trans (W2_arg9 m ρ c)

theorem W3_arg15 (c : Dev nD) : W3 m ρ c (Proc.devRef .tc main_arg15) = (m ((c : Thread nD τ).loc main_arg15)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg15) = W2 m ρ c (Proc.devRef .tc main_arg15)).trans (W2_arg15 m ρ c)

theorem W3_arg16 (c : Dev nD) : W3 m ρ c (Proc.devRef .tc main_arg16) = (m ((c : Thread nD τ).loc main_arg16)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg16) = W2 m ρ c (Proc.devRef .tc main_arg16)).trans (W2_arg16 m ρ c)

theorem W3_arg3 (c : Dev nD) : W3 m ρ c (Proc.devRef .tc main_arg3) = (m ((c : Thread nD τ).loc main_arg3)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg3) = W2 m ρ c (Proc.devRef .tc main_arg3)).trans (W2_arg3 m ρ c)

theorem W3_arg10 (c : Dev nD) : W3 m ρ c (Proc.devRef .tc main_arg10) = (m ((c : Thread nD τ).loc main_arg10)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg10) = W2 m ρ c (Proc.devRef .tc main_arg10)).trans (W2_arg10 m ρ c)

theorem W3_arg11 (c : Dev nD) : W3 m ρ c (Proc.devRef .tc main_arg11) = (m ((c : Thread nD τ).loc main_arg11)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg11) = W2 m ρ c (Proc.devRef .tc main_arg11)).trans (W2_arg11 m ρ c)

theorem W3_arg12 (c : Dev nD) : W3 m ρ c (Proc.devRef .tc main_arg12) = (m ((c : Thread nD τ).loc main_arg12)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg12) = W2 m ρ c (Proc.devRef .tc main_arg12)).trans (W2_arg12 m ρ c)

theorem W3_arg17 (c : Dev nD) : W3 m ρ c (Proc.devRef .tc main_arg17) = (m ((c : Thread nD τ).loc main_arg17)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg17) = W2 m ρ c (Proc.devRef .tc main_arg17)).trans (W2_arg17 m ρ c)

theorem W3_arg18 (c : Dev nD) : W3 m ρ c (Proc.devRef .tc main_arg18) = (m ((c : Thread nD τ).loc main_arg18)) :=
  (StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps1 (W2 m ρ c) (Proc.devRef .tc main_arg18) = W2 m ρ c (Proc.devRef .tc main_arg18)).trans (W2_arg18 m ρ c)

theorem W3_v23 (c : Dev nD) : W3 m ρ c (Proc.devRef .tc main_v23) = W2 m ρ c (Proc.devRef .tc main_v23) :=
  StableHlo.after_of_forall_not_mem _ _ (List.forall_iff_forall_mem.mp (by
      simp only [hostOps1, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

theorem W4_arg3 (c : Dev nD) : W4 m ρ c (Proc.devRef .tc main_arg3) = (m ((c : Thread nD τ).loc main_arg3)) :=
  (W4_of_ne m ρ c main_arg3 (by decide)).trans (W3_arg3 m ρ c)

theorem W4_arg10 (c : Dev nD) : W4 m ρ c (Proc.devRef .tc main_arg10) = (m ((c : Thread nD τ).loc main_arg10)) :=
  (W4_of_ne m ρ c main_arg10 (by decide)).trans (W3_arg10 m ρ c)

theorem W4_arg11 (c : Dev nD) : W4 m ρ c (Proc.devRef .tc main_arg11) = (m ((c : Thread nD τ).loc main_arg11)) :=
  (W4_of_ne m ρ c main_arg11 (by decide)).trans (W3_arg11 m ρ c)

theorem W4_arg12 (c : Dev nD) : W4 m ρ c (Proc.devRef .tc main_arg12) = (m ((c : Thread nD τ).loc main_arg12)) :=
  (W4_of_ne m ρ c main_arg12 (by decide)).trans (W3_arg12 m ρ c)

theorem W4_arg17 (c : Dev nD) : W4 m ρ c (Proc.devRef .tc main_arg17) = (m ((c : Thread nD τ).loc main_arg17)) :=
  (W4_of_ne m ρ c main_arg17 (by decide)).trans (W3_arg17 m ρ c)

theorem W4_arg18 (c : Dev nD) : W4 m ρ c (Proc.devRef .tc main_arg18) = (m ((c : Thread nD τ).loc main_arg18)) :=
  (W4_of_ne m ρ c main_arg18 (by decide)).trans (W3_arg18 m ρ c)

theorem W4_v23 (c : Dev nD) : W4 m ρ c (Proc.devRef .tc main_v23) = W2 m ρ c (Proc.devRef .tc main_v23) :=
  (W4_of_ne m ρ c main_v23 (by decide)).trans (W3_v23 m ρ c)

theorem W5_arg10 (c : Dev nD) : W5 m ρ c (Proc.devRef .tc main_arg10) = (m ((c : Thread nD τ).loc main_arg10)) :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps2 (W4 m ρ c) (Proc.devRef .tc main_arg10) = W4 m ρ c (Proc.devRef .tc main_arg10)).trans (W4_arg10 m ρ c)

theorem W5_arg11 (c : Dev nD) : W5 m ρ c (Proc.devRef .tc main_arg11) = (m ((c : Thread nD τ).loc main_arg11)) :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps2 (W4 m ρ c) (Proc.devRef .tc main_arg11) = W4 m ρ c (Proc.devRef .tc main_arg11)).trans (W4_arg11 m ρ c)

theorem W5_arg12 (c : Dev nD) : W5 m ρ c (Proc.devRef .tc main_arg12) = (m ((c : Thread nD τ).loc main_arg12)) :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps2 (W4 m ρ c) (Proc.devRef .tc main_arg12) = W4 m ρ c (Proc.devRef .tc main_arg12)).trans (W4_arg12 m ρ c)

theorem W5_arg17 (c : Dev nD) : W5 m ρ c (Proc.devRef .tc main_arg17) = (m ((c : Thread nD τ).loc main_arg17)) :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps2 (W4 m ρ c) (Proc.devRef .tc main_arg17) = W4 m ρ c (Proc.devRef .tc main_arg17)).trans (W4_arg17 m ρ c)

theorem W5_arg18 (c : Dev nD) : W5 m ρ c (Proc.devRef .tc main_arg18) = (m ((c : Thread nD τ).loc main_arg18)) :=
  (StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))) : StableHlo.after hostOps2 (W4 m ρ c) (Proc.devRef .tc main_arg18) = W4 m ρ c (Proc.devRef .tc main_arg18)).trans (W4_arg18 m ρ c)

theorem W5_v47 (c : Dev nD) : W5 m ρ c (Proc.devRef .tc main_v47) = W4 m ρ c (Proc.devRef .tc main_v47) :=
  StableHlo.after_of_forall_not_mem _ _ (List.forall_iff_forall_mem.mp (by
      simp only [hostOps2, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## The three edge means, as the stretches compute them -/

theorem W1_mean (c : Dev nD) :
    (W1 m ρ c (Proc.devRef .tc main_v22) : S50000x128.Idx → EReal) = Cert.Sage.Ref.edgeMean1 (m ((c : Thread nD τ).loc main_arg0)) (m ((c : Thread nD τ).loc main_arg2)) := by
  show StableHlo.after hostOps0 (W0 m ρ c) (Proc.devRef .tc main_v22) = _
  simp only [hostOps0]
  after_results_simp
  rfl

theorem W3_mean (c : Dev nD) :
    (W3 m ρ c (Proc.devRef .tc main_v46) : S100000x128.Idx → EReal) = Cert.Sage.Ref.edgeMean2 (m ((c : Thread nD τ).loc main_arg0)) (m ((c : Thread nD τ).loc main_arg3)) := by
  rw [← W2_arg0 m ρ c, ← W2_arg3 m ρ c]
  show StableHlo.after hostOps1 (W2 m ρ c) (Proc.devRef .tc main_v46) = _
  simp only [hostOps1]
  after_results_simp
  rfl

theorem W5_mean (c : Dev nD) :
    (W5 m ρ c (Proc.devRef .tc main_v70) : S100000x256.Idx → EReal)
      = Cert.Sage.Ref.edgeMean3 (W2 m ρ c (Proc.devRef .tc main_v23)) (m ((c : Thread nD τ).loc main_arg3)) := by
  rw [← W4_v23 m ρ c, ← W4_arg3 m ρ c]
  show StableHlo.after hostOps2 (W4 m ρ c) (Proc.devRef .tc main_v70) = _
  simp only [hostOps2]
  after_results_simp
  rfl

/-! ## The three results -/

/-- The first stage: the movies' embeddings. -/
abbrev movies (c : Dev nD) : S50000x256.Idx → EReal :=
  Cert.Sage.stageRect (Cert.Sage.Ref.edgeMean1 (m ((c : Thread nD τ).loc main_arg0)) (m ((c : Thread nD τ).loc main_arg2))) (m ((c : Thread nD τ).loc main_arg0)) (m ((c : Thread nD τ).loc main_arg4)) (m ((c : Thread nD τ).loc main_arg5)) (m ((c : Thread nD τ).loc main_arg6)) (m ((c : Thread nD τ).loc main_arg13)) (m ((c : Thread nD τ).loc main_arg14))

/-- The second stage: the users' embeddings. -/
abbrev users (c : Dev nD) : S100000x256.Idx → EReal :=
  Cert.Sage.stageRect (Cert.Sage.Ref.edgeMean2 (m ((c : Thread nD τ).loc main_arg0)) (m ((c : Thread nD τ).loc main_arg3))) (m ((c : Thread nD τ).loc main_arg1)) (m ((c : Thread nD τ).loc main_arg7)) (m ((c : Thread nD τ).loc main_arg8)) (m ((c : Thread nD τ).loc main_arg9)) (m ((c : Thread nD τ).loc main_arg15)) (m ((c : Thread nD τ).loc main_arg16))

/-- The third stage: the result. -/
abbrev scores (c : Dev nD) : S100000x64.Idx → EReal :=
  Cert.Sage.stage (Cert.Sage.Ref.edgeMean3 (movies m c) (m ((c : Thread nD τ).loc main_arg3))) (users m c) (m ((c : Thread nD τ).loc main_arg10)) (m ((c : Thread nD τ).loc main_arg11)) (m ((c : Thread nD τ).loc main_arg12)) (m ((c : Thread nD τ).loc main_arg17)) (m ((c : Thread nD τ).loc main_arg18))

theorem W2_v23 (c : Dev nD) : W2 m ρ c (Proc.devRef .tc main_v23) = movies m c := by
  rw [show W2 m ρ c (Proc.devRef .tc main_v23) = (dat0 (V1 m ρ) c).arrAt 7 cfg0.N from W2_arr m ρ c 7, Rows0.final]
  show Cert.Sage.stageRect (W1 m ρ c (Proc.devRef .tc main_v22)) (W1 m ρ c (Proc.devRef .tc main_arg0)) (W1 m ρ c (Proc.devRef .tc main_arg4))
    (W1 m ρ c (Proc.devRef .tc main_arg5)) (W1 m ρ c (Proc.devRef .tc main_arg6)) (W1 m ρ c (Proc.devRef .tc main_arg13)) (W1 m ρ c (Proc.devRef .tc main_arg14)) = _
  rw [W1_mean, W1_arg0, W1_arg4, W1_arg5, W1_arg6, W1_arg13, W1_arg14]

theorem W4_v47 (c : Dev nD) : W4 m ρ c (Proc.devRef .tc main_v47) = users m c := by
  rw [show W4 m ρ c (Proc.devRef .tc main_v47) = (dat1 (V3 m ρ) c).arrAt 7 cfg1.N from W4_arr m ρ c 7, Rows1.final]
  show Cert.Sage.stageRect (W3 m ρ c (Proc.devRef .tc main_v46)) (W3 m ρ c (Proc.devRef .tc main_arg1)) (W3 m ρ c (Proc.devRef .tc main_arg7))
    (W3 m ρ c (Proc.devRef .tc main_arg8)) (W3 m ρ c (Proc.devRef .tc main_arg9)) (W3 m ρ c (Proc.devRef .tc main_arg15)) (W3 m ρ c (Proc.devRef .tc main_arg16)) = _
  rw [W3_mean, W3_arg1, W3_arg7, W3_arg8, W3_arg9, W3_arg15, W3_arg16]

/-- The result array after the last region. -/
theorem W6_v71 (c : Dev nD) : W6 m ρ c (Proc.devRef .tc main_v71) = scores m c := by
  rw [show W6 m ρ c (Proc.devRef .tc main_v71) = (dat2 (V5 m ρ) c).arrAt 7 cfg2.N from W6_arr m ρ c 7, Rows2.final]
  show Cert.Sage.stage (W5 m ρ c (Proc.devRef .tc main_v70)) (W5 m ρ c (Proc.devRef .tc main_v47)) (W5 m ρ c (Proc.devRef .tc main_arg10))
    (W5 m ρ c (Proc.devRef .tc main_arg11)) (W5 m ρ c (Proc.devRef .tc main_arg12)) (W5 m ρ c (Proc.devRef .tc main_arg17)) (W5 m ρ c (Proc.devRef .tc main_arg18)) = _
  rw [W5_mean, W5_v47, W4_v47, W2_v23, W5_arg10, W5_arg11, W5_arg12, W5_arg17, W5_arg18]

end Cert.KernelIdeal.Whole

end
-- ==== Proof.KValue.lean ====
import proofs.«111290_j48816598286984_1_alg».proof.Proof.KRun
import proofs.«111290_j48816598286984_1_alg».proof.Proof.KFold

/-!
# The blockwise program's run, read

Every weakly fair execution of the blockwise program at the exact extended reals terminates with the result array at
`Whole.scores` — the third stage over the edge mean of the first stage's result and over the second stage's result — and
with the argument arrays as launched.
-/

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_v71) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v71 (by decide))).trans (W6_v71 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c)⟩)
    (run_all m ρ)

end Cert.KernelIdeal.Whole

end
-- ==== Proof.lean ====
/-
  A three-stage graph network over movies and users, computed blockwise (three row-blocked regions between whole-array
  edge means) against the same network computed on whole arrays, at the exact extended reals.

  Each stage is `rect? (dense (hidden M X Wl bl Wr) W b)` (Proof/LibSageStage.lean): the aggregated neighbour features `M` and
  the nodes' own features `X` projected, biased and rectified, then a dense layer.  The blockwise program adds the two
  projections and then the bias; the whole-array program adds the bias to the first projection and then the second:
  `(a + b) + c = (a + c) + b` on the extended reals (Proof/LibSageSpellings.lean).  A row of a stage needs that row of `M` and `X`
  only, so the blocks of 2000 rows, put side by side, are the stage of the whole arrays (Proof/Rows0/1/2.lean).  The edge
  means between the stages are the same whole-array terms in both programs and are never opened (Proof/Ref.lean,
  Proof/KFold.lean).  Format changes to a narrower float are the identity on extended reals; a matrix product into a zero
  accumulator is the plain sum of products.  No argument needs to be finite for any of this.
-/
import proofs.«111290_j48816598286984_1_alg».proof.Defs
import proofs.«111290_j48816598286984_1_alg».proof.Proof.Gen.Kernel
import proofs.«111290_j48816598286984_1_alg».proof.Proof.Gen.Kernel.Skeleton
import proofs.«111290_j48816598286984_1_alg».proof.Proof.Gen.Kernel.Launch
import proofs.«111290_j48816598286984_1_alg».proof.Proof.Gen.Kernel.Points
import proofs.«111290_j48816598286984_1_alg».proof.Proof.Gen.Kernel.Frame
import proofs.«111290_j48816598286984_1_alg».proof.Proof.Gen.KernelIdeal
import proofs.«111290_j48816598286984_1_alg».proof.Proof.Gen.KernelIdeal.Skeleton
import proofs.«111290_j48816598286984_1_alg».proof.Proof.Gen.KernelIdeal.Launch
import proofs.«111290_j48816598286984_1_alg».proof.Proof.Gen.KernelIdeal.Points
import proofs.«111290_j48816598286984_1_alg».proof.Proof.Gen.KernelIdeal.Frame
import proofs.«111290_j48816598286984_1_alg».proof.Proof.Gen.ReferenceIdeal
import proofs.«111290_j48816598286984_1_alg».proof.Proof.Gen.ReferenceIdeal.Run
import proofs.«111290_j48816598286984_1_alg».proof.Proof.Gen.Pre_finite_inputs
import proofs.«111290_j48816598286984_1_alg».proof.Proof.KValue
import proofs.«111290_j48816598286984_1_alg».proof.Proof.Ref
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The whole-array program's run with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the same composition of the three stages and the three edge means of
    the arguments. -/
theorem algebraic : Cert.algebraic_KernelIdeal_ReferenceIdeal := by
  intro m ρ m' ρ' _ hagree
  refine ⟨fun c => Cert.KernelIdeal.Whole.scores m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.Sage.Ref.result_eq, Cert.Sage.Ref.dense1_eq, Cert.Sage.Ref.dense2_eq, Cert.Sage.Ref.dense3_eq,
    h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
